-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S512x256x768 : Shape := ⟨3, ![512, 256, 768]⟩
abbrev S768x1000 : Shape := ⟨2, ![768, 1000]⟩
abbrev S1000 : Shape := ⟨1, ![1000]⟩
abbrev S_ : Shape := ⟨0, ![]⟩

class Facts : Prop where
  bcast_S_S512x256x768 : S_.BroadcastsInDim S512x256x768 (![] : Fin 0 → Fin S512x256x768.rank)
  reducesTo_S512x256x768_S_d0_1_2 : S512x256x768.ReducesTo [0, 1, 2] S_
  h_S_ : 0 < S_.numel
  bcast_S_S768x1000 : S_.BroadcastsInDim S768x1000 (![] : Fin 0 → Fin S768x1000.rank)
  reducesTo_S768x1000_S_d0_1 : S768x1000.ReducesTo [0, 1] S_
  bcast_S_S1000 : S_.BroadcastsInDim S1000 (![] : Fin 0 → Fin S1000.rank)
  reducesTo_S1000_S_d0 : S1000.ReducesTo [0] S_

variable [Facts]

def fn {F : FTy → Type} [FloatOps F] (main_arg0 : FVec F S512x256x768 .f32) (main_arg1 : FVec F S768x1000 .f32) (main_arg2 : FVec F S1000 .f32) : IVec S_ 1 :=
  let main_v0 : FVec F S512x256x768 .f32 := Host.absf main_arg0
  let main_cst : FVec F S_ .f32 := constant S_ .f32 0x7F800000#32
  let main_v1 : FVec F S512x256x768 .f32 := broadcastInDim S512x256x768 ![] bcast_S_S512x256x768 main_cst
  let main_v2 : IVec S512x256x768 1 := cmpf .olt main_v0 main_v1
  let main_c : IVec S_ 1 := constantI S_ 1 1#1
  let main_v3 : IVec S_ 1 := (fun x v => Host.reduce IntOp.andi x v reducesTo_S512x256x768_S_d0_1_2 h_S_) main_v2 main_c
  let main_v4 : FVec F S768x1000 .f32 := Host.absf main_arg1
  let main_cst_0 : FVec F S_ .f32 := constant S_ .f32 0x7F800000#32
  let main_v5 : FVec F S768x1000 .f32 := broadcastInDim S768x1000 ![] bcast_S_S768x1000 main_cst_0
  let main_v6 : IVec S768x1000 1 := cmpf .olt main_v4 main_v5
  let main_c_1 : IVec S_ 1 := constantI S_ 1 1#1
  let main_v7 : IVec S_ 1 := (fun x v => Host.reduce IntOp.andi x v reducesTo_S768x1000_S_d0_1 h_S_) main_v6 main_c_1
  let main_v8 : IVec S_ 1 := andi main_v3 main_v7
  let main_v9 : FVec F S1000 .f32 := Host.absf main_arg2
  let main_cst_2 : FVec F S_ .f32 := constant S_ .f32 0x7F800000#32
  let main_v10 : FVec F S1000 .f32 := broadcastInDim S1000 ![] bcast_S_S1000 main_cst_2
  let main_v11 : IVec S1000 1 := cmpf .olt main_v9 main_v10
  let main_c_3 : IVec S_ 1 := constantI S_ 1 1#1
  let main_v12 : IVec S_ 1 := (fun x v => Host.reduce IntOp.andi x v reducesTo_S1000_S_d0 h_S_) main_v11 main_c_3
  let main_v13 : IVec S_ 1 := andi main_v8 main_v12
  main_v13
-- ==== Kernel.lean ====
abbrev S512x256x768 : Shape := ⟨3, ![512, 256, 768]⟩
abbrev S768x1000 : Shape := ⟨2, ![768, 1000]⟩
abbrev S1000 : Shape := ⟨1, ![1000]⟩
abbrev S131072x768 : Shape := ⟨2, ![131072, 768]⟩
abbrev S1x1000 : Shape := ⟨2, ![1, 1000]⟩
abbrev S512x1000 : Shape := ⟨2, ![512, 1000]⟩
abbrev S4096x768 : Shape := ⟨2, ![4096, 768]⟩
abbrev S16x1000 : Shape := ⟨2, ![16, 1000]⟩
abbrev S16x256x768 : Shape := ⟨3, ![16, 256, 768]⟩
abbrev S16x768 : Shape := ⟨2, ![16, 768]⟩
abbrev S16x1x768 : Shape := ⟨3, ![16, 1, 768]⟩

abbrev nBuf : Space → Nat
  | .hbm => 6
  | .vmem => 6
  | .smem => 0
  | _ => 0

abbrev bufTy : (tb : Table) → Fin (tcTables nBuf tb) → BufTy
  | .hbm, ⟨0, _⟩ => ⟨S512x256x768, .f32⟩
  | .hbm, ⟨1, _⟩ => ⟨S768x1000, .f32⟩
  | .hbm, ⟨2, _⟩ => ⟨S1000, .f32⟩
  | .hbm, ⟨3, _⟩ => ⟨S131072x768, .f32⟩
  | .hbm, ⟨4, _⟩ => ⟨S1x1000, .f32⟩
  | .hbm, ⟨5, _⟩ => ⟨S512x1000, .f32⟩
  | .local _ .vmem, ⟨0, _⟩ => ⟨S4096x768, .f32⟩
  | .local _ .vmem, ⟨1, _⟩ => ⟨S4096x768, .f32⟩
  | .local _ .vmem, ⟨2, _⟩ => ⟨S768x1000, .f32⟩
  | .local _ .vmem, ⟨3, _⟩ => ⟨S1x1000, .f32⟩
  | .local _ .vmem, ⟨4, _⟩ => ⟨S16x1000, .f32⟩
  | .local _ .vmem, ⟨5, _⟩ => ⟨S16x1000, .f32⟩
  | _, _ => ⟨S512x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S512x256x768_S131072x768 : S512x256x768.ShapeCasts S131072x768
  shapeCasts_S1000_S1x1000 : S1000.ShapeCasts S1x1000
  inb_S4096x768_S4096x768_0_0 : ∀ a, (![0, 0] : Fin 2 → Nat) a + S4096x768.size a ≤ S4096x768.size a
  h_S4096x768 : 0 < S4096x768.numel
  shapeCasts_S4096x768_S4096x768 : S4096x768.ShapeCasts S4096x768
  shapeCasts_S4096x768_S16x256x768 : S4096x768.ShapeCasts S16x256x768
  reduces_S16x256x768_S16x768 : S16x256x768.Reduces [1] S16x768
  slices_S16x256x768_o0_0_0_S16x1x768 : S16x256x768.Slices ![0, 0, 0] S16x1x768
  shapeCasts_S16x1x768_S16x768 : S16x1x768.ShapeCasts S16x768
  inb_S768x1000_S768x1000_0_0 : ∀ a, (![0, 0] : Fin 2 → Nat) a + S768x1000.size a ≤ S768x1000.size a
  h_S768x1000 : 0 < S768x1000.numel
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1x1000_S16x1000 : S1x1000.Broadcasts S16x1000
  inb_S16x1000_S16x1000_0_0 : ∀ a, (![0, 0] : Fin 2 → Nat) a + S16x1000.size a ≤ S16x1000.size a
  h_S16x1000 : 0 < S16x1000.numel
  dot_S16x768_S768x1000_S16x1000_1_0_0_1_n_n_wf : DotDims.WF S16x768 S768x1000 S16x1000 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x768.size a ≤ S131072x768.size a
  hwx0_0 : ∀ i : grid0.Coords, EltTy.bits .f32 = 32 ∨ (Rect.block (s := S131072x768) S4096x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1000.size a ≤ S768x1000.size a
  hwx0_1 : ∀ i : grid0.Coords, EltTy.bits .f32 = 32 ∨ (Rect.block (s := S768x1000) S768x1000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x1000.size a ≤ S512x1000.size a
  hwx0_3 : ∀ i : grid0.Coords, EltTy.bits .f32 = 32 ∨ (Rect.block (s := S512x1000) S16x1000.size (cc0_transform_3 i) (hinb0_3 i)).WholeWords (EltTy.packing .f32)

variable [Facts₀]

def dot_S16x768_S768x1000_S16x1000_1_0_0_1_n_n : DotDims S16x768 S768x1000 S16x1000 where
  lhsContracting := [1]
  rhsContracting := [0]
  lhsNonContracting := [0]
  rhsNonContracting := [1]
  lhsBatch := []
  rhsBatch := []
  wf := dot_S16x768_S768x1000_S16x1000_1_0_0_1_n_n_wf

abbrev win0_0 : Pipeline.Window sig grid0 :=
  Pipeline.Window.ofSpec (Memref.whole main_v0) S4096x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S768x1000.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S16x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S512x256x768 : Shape := ⟨3, ![512, 256, 768]⟩
abbrev S768x1000 : Shape := ⟨2, ![768, 1000]⟩
abbrev S1000 : Shape := ⟨1, ![1000]⟩
abbrev S_ : Shape := ⟨0, ![]⟩
abbrev S768x1024 : Shape := ⟨2, ![768, 1024]⟩
abbrev S1024 : Shape := ⟨1, ![1024]⟩
abbrev S1x1024 : Shape := ⟨2, ![1, 1024]⟩
abbrev S512x1024 : Shape := ⟨2, ![512, 1024]⟩
abbrev S256x8x768 : Shape := ⟨3, ![256, 8, 768]⟩
abbrev S256x1024 : Shape := ⟨2, ![256, 1024]⟩
abbrev S256x768 : Shape := ⟨2, ![256, 768]⟩
abbrev S256x1x768 : Shape := ⟨3, ![256, 1, 768]⟩
abbrev S512x1000 : Shape := ⟨2, ![512, 1000]⟩

abbrev nBuf : Space → Nat
  | .hbm => 12
  | .vmem => 8
  | .smem => 0
  | _ => 0

abbrev bufTy : (tb : Table) → Fin (tcTables nBuf tb) → BufTy
  | .hbm, ⟨0, _⟩ => ⟨S512x256x768, .f32⟩
  | .hbm, ⟨1, _⟩ => ⟨S768x1000, .f32⟩
  | .hbm, ⟨2, _⟩ => ⟨S1000, .f32⟩
  | .hbm, ⟨3, _⟩ => ⟨S_, .i32⟩
  | .hbm, ⟨4, _⟩ => ⟨S_, .f32⟩
  | .hbm, ⟨5, _⟩ => ⟨S768x1024, .f32⟩
  | .hbm, ⟨6, _⟩ => ⟨S_, .i32⟩
  | .hbm, ⟨7, _⟩ => ⟨S_, .f32⟩
  | .hbm, ⟨8, _⟩ => ⟨S1024, .f32⟩
  | .hbm, ⟨9, _⟩ => ⟨S1x1024, .f32⟩
  | .hbm, ⟨10, _⟩ => ⟨S512x1024, .f32⟩
  | .hbm, ⟨11, _⟩ => ⟨S512x1000, .f32⟩
  | .local _ .vmem, ⟨0, _⟩ => ⟨S256x8x768, .f32⟩
  | .local _ .vmem, ⟨1, _⟩ => ⟨S256x8x768, .f32⟩
  | .local _ .vmem, ⟨2, _⟩ => ⟨S768x1024, .f32⟩
  | .local _ .vmem, ⟨3, _⟩ => ⟨S1x1024, .f32⟩
  | .local _ .vmem, ⟨4, _⟩ => ⟨S256x1024, .f32⟩
  | .local _ .vmem, ⟨5, _⟩ => ⟨S256x1024, .f32⟩
  | .local _ .vmem, ⟨6, _⟩ => ⟨S256x768, .f32⟩
  | .local _ .vmem, ⟨7, _⟩ => ⟨S256x768, .f32⟩
  | _, _ => ⟨S512x256x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![2, 32], ![false, false]⟩

def k0_cond3 (i : grid0.Coords) : BitVec 1 :=
  let arg1 : BitVec 32 := BitVec.ofNat 32 (i 1).val
  let c31_i32 : BitVec 32 := 31#32
  let v8 : BitVec 1 := Scalar.cmpi .eq arg1 c31_i32
  let v9 : BitVec 32 := Scalar.extui v8
  let c0_i32_5 : BitVec 32 := 0#32
  let v10 : BitVec 1 := Scalar.cmpi .ne v9 c0_i32_5
  v10

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S256x8x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S768x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

class Facts₀ : Prop where
  pads_S768x1000_S768x1024_000_0240 : S768x1000.Pads (![0, 0] : Fin 2 → Nat) ![0, 24] ![0, 0] S768x1024
  h_S_ : 0 < S_.numel
  pads_S1000_S1024_0240 : S1000.Pads (![0] : Fin 1 → Nat) ![24] ![0] S1024
  shapeCasts_S1024_S1x1024 : S1024.ShapeCasts S1x1024
  inb_S256x8x768_S256x8x768_0_0_0 : ∀ a, (![0, 0, 0] : Fin 3 → Nat) a + S256x8x768.size a ≤ S256x8x768.size a
  h_S256x8x768 : 0 < S256x8x768.numel
  reduces_S256x8x768_S256x768 : S256x8x768.Reduces [1] S256x768
  inb_S256x8x768_S256x1x768_0_0_0 : ∀ a, (![0, 0, 0] : Fin 3 → Nat) a + S256x1x768.size a ≤ S256x8x768.size a
  h_S256x1x768 : 0 < S256x1x768.numel
  shapeCasts_S256x1x768_S256x768 : S256x1x768.ShapeCasts S256x768
  inb_S256x768_S256x768_0_0 : ∀ a, (![0, 0] : Fin 2 → Nat) a + S256x768.size a ≤ S256x768.size a
  h_S256x768 : 0 < S256x768.numel
  shapeCasts_S256x768_S256x768 : S256x768.ShapeCasts S256x768
  inb_S768x1024_S768x1024_0_0 : ∀ a, (![0, 0] : Fin 2 → Nat) a + S768x1024.size a ≤ S768x1024.size a
  h_S768x1024 : 0 < S768x1024.numel
  shapeCasts_S768x1024_S768x1024 : S768x1024.ShapeCasts S768x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S256x1024 : S1x1024.Broadcasts S256x1024
  inb_S256x1024_S256x1024_0_0 : ∀ a, (![0, 0] : Fin 2 → Nat) a + S256x1024.size a ≤ S256x1024.size a
  h_S256x1024 : 0 < S256x1024.numel
  slices_S512x1024_S512x1000_0_0 : S512x1024.Slices ![0, 0] S512x1000
  dot_S256x768_S768x1024_S256x1024_1_0_0_1_n_n_wf : DotDims.WF S256x768 S768x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x8x768.size a ≤ S512x256x768.size a
  hwx0_0 : ∀ i : grid0.Coords, EltTy.bits .f32 = 32 ∨ (Rect.block (s := S512x256x768) S256x8x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x1024.size a ≤ S768x1024.size a
  hwx0_1 : ∀ i : grid0.Coords, EltTy.bits .f32 = 32 ∨ (Rect.block (s := S768x1024) S768x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S512x1024.size a
  hwx0_3 : ∀ i : grid0.Coords, EltTy.bits .f32 = 32 ∨ (Rect.block (s := S512x1024) S256x1024.size (cc0_transform_3 i) (hinb0_3 i)).WholeWords (EltTy.packing .f32)

variable [Facts₀]

def dot_S256x768_S768x1024_S256x1024_1_0_0_1_n_n : DotDims S256x768 S768x1024 S256x1024 where
  lhsContracting := [1]
  rhsContracting := [0]
  lhsNonContracting := [0]
  rhsNonContracting := [1]
  lhsBatch := []
  rhsBatch := []
  wf := dot_S256x768_S768x1024_S256x1024_1_0_0_1_n_n_wf

abbrev win0_0 : Pipeline.Window sig grid0 :=
  Pipeline.Window.ofSpec (Memref.whole main_arg0) S256x8x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S768x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

class Facts : Prop extends Facts₀ where

variable [Facts]
-- ==== Proof.LibStackLayout.lean ====
/-
  Stacks of matrices read at an index given by coordinates: the keepdims layouts of a reduction along the last or the
  middle axis of an `[m, a, b]` array, for any extents.

  • a trailing or a middle unit axis added by a shape cast: `[m, a] → [m, a, 1]` (`shapeCast_ma_ma1_apply`) and
    `[m, a] → [m, 1, a]` (`shapeCast_ma_m1a_apply`);
  • a column `[m, a, 1]` or a row `[m, 1, b]` of each matrix broadcast over the matrix `[m, a, b]`
    (`broadcastTo_ma1_mab_apply`, `broadcastTo_m1b_mab_apply`);
  • at the ideal values, the sum of an `[m, a, b]` array along its last axis (`sum_last_apply`) and along its middle
    axis (`sum_mid_apply`) as plain `Fin`-indexed sums; `sum_last_f32_apply` / `sum_mid_f32_apply` are these at f32 from the
    zero pattern, with the accumulator's side condition spelt as a printed program spells it.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.StackLayout

open Idealize.ShloMosaic Idealize.ShloMosaic.ValueIdx

variable {α : Type}

/-- An `[m, a]` array cast to `[m, a, 1]` reads, at `(k, i, u)`, the operand at `(k, i)`. -/
theorem shapeCast_ma_ma1_apply {m a : ℕ} (x : (⟨2, ![m, a]⟩ : Shape).Idx → α)
    (h : (⟨2, ![m, a]⟩ : Shape).ShapeCasts ⟨3, ![m, a, 1]⟩) (k : Fin m) (i : Fin a) (u : Fin 1) :
    shapeCast ⟨3, ![m, a, 1]⟩ x h (ix3 k i u) = x (ix2 k i) :=
  shapeCast_apply x h _ _ (by
    have hu : u.val = 0 := by omega
    rw [Shape.rowMajor_val_three, Shape.rowMajor_val_two]
    show k.val * a + i.val = (k.val * a + i.val) * 1 + u.val
    rw [hu, Nat.mul_one, Nat.add_zero])

/-- An `[m, a]` array cast to `[m, 1, a]` reads, at `(k, u, i)`, the operand at `(k, i)`. -/
theorem shapeCast_ma_m1a_apply {m a : ℕ} (x : (⟨2, ![m, a]⟩ : Shape).Idx → α)
    (h : (⟨2, ![m, a]⟩ : Shape).ShapeCasts ⟨3, ![m, 1, a]⟩) (k : Fin m) (u : Fin 1) (i : Fin a) :
    shapeCast ⟨3, ![m, 1, a]⟩ x h (ix3 k u i) = x (ix2 k i) :=
  shapeCast_apply x h _ _ (by
    have hu : u.val = 0 := by omega
    rw [Shape.rowMajor_val_three, Shape.rowMajor_val_two]
    show k.val * a + i.val = (k.val * 1 + u.val) * a + i.val
    rw [hu, Nat.mul_one, Nat.add_zero])

/-- A column of each matrix, `[m, a, 1]`, broadcast to `[m, a, b]` reads, at `(k, i, j)`, the column's entry `(k, i)`. -/
theorem broadcastTo_ma1_mab_apply {m a b : ℕ} (v : (⟨3, ![m, a, 1]⟩ : Shape).Idx → α)
    (h : (⟨3, ![m, a, 1]⟩ : Shape).Broadcasts ⟨3, ![m, a, b]⟩) (k : Fin m) (i : Fin a) (j : Fin b) :
    broadcastTo ⟨3, ![m, a, b]⟩ v h (ix3 k i j) = v (ix3 k i (0 : Fin 1)) := by
  refine broadcastTo_apply v h (ix3 k i j) (ix3 k i (0 : Fin 1)) fun ax => ?_
  match ax with
  | ⟨0, _⟩ =>
    show k.val = if m = 1 then 0 else k.val
    split
    · have := k.isLt; omega
    · rfl
  | ⟨1, _⟩ =>
    show i.val = if a = 1 then 0 else i.val
    split
    · have := i.isLt; omega
    · rfl
  | ⟨2, _⟩ => rfl

/-- A row of each matrix, `[m, 1, b]`, broadcast to `[m, a, b]` reads, at `(k, i, j)`, the row's entry `(k, j)`. -/
theorem broadcastTo_m1b_mab_apply {m a b : ℕ} (v : (⟨3, ![m, 1, b]⟩ : Shape).Idx → α)
    (h : (⟨3, ![m, 1, b]⟩ : Shape).Broadcasts ⟨3, ![m, a, b]⟩) (k : Fin m) (i : Fin a) (j : Fin b) :
    broadcastTo ⟨3, ![m, a, b]⟩ v h (ix3 k i j) = v (ix3 k (0 : Fin 1) j) := by
  refine broadcastTo_apply v h (ix3 k i j) (ix3 k (0 : Fin 1) j) fun ax => ?_
  match ax with
  | ⟨0, _⟩ =>
    show k.val = if m = 1 then 0 else k.val
    split
    · have := k.isLt; omega
    · rfl
  | ⟨1, _⟩ => rfl
  | ⟨2, _⟩ =>
    show j.val = if b = 1 then 0 else j.val
    split
    · have := j.isLt; omega
    · rfl

/-- At the ideal values the float sum of an `[m, a, b]` array along its LAST axis, from the neutral accumulator, is at
    `(k, i)` the plain sum over `j` of the entries `(k, i, j)`. -/
theorem sum_last_apply {m a b : ℕ} {φ : FTy} (src : FVec Ideal ⟨3, ![m, a, b]⟩ φ) (acc : BitVec φ.bits)
    (h : (⟨3, ![m, a, b]⟩ : Shape).Reduces [2] ⟨2, ![m, a]⟩) (hφ : FKind.Formats φ) (hacc : acc = FKind.add.neutral φ hφ)
    (k : Fin m) (i : Fin a) :
    multiReduction .add [2] ⟨2, ![m, a]⟩ src acc h hφ hacc (ix2 k i) = ∑ j : Fin b, src (ix3 k i j) := by
  refine (Ideal.multiReduction_add_single src acc h hφ hacc (ix2 k i)).trans ?_
  show ∑ j : Fin b, src (h.lift (ix2 k i) j) = _
  refine Finset.sum_congr rfl fun j _ => congrArg src (funext fun ax => ?_)
  match ax with
  | ⟨0, _⟩ => exact Fin.ext rfl
  | ⟨1, _⟩ => exact Fin.ext rfl
  | ⟨2, _⟩ => exact Fin.ext rfl

/-- At the ideal values the float sum of an `[m, a, b]` array along its MIDDLE axis, from the neutral accumulator, is at
    `(k, j)` the plain sum over `i` of the entries `(k, i, j)`. -/
theorem sum_mid_apply {m a b : ℕ} {φ : FTy} (src : FVec Ideal ⟨3, ![m, a, b]⟩ φ) (acc : BitVec φ.bits)
    (h : (⟨3, ![m, a, b]⟩ : Shape).Reduces [1] ⟨2, ![m, b]⟩) (hφ : FKind.Formats φ) (hacc : acc = FKind.add.neutral φ hφ)
    (k : Fin m) (j : Fin b) :
    multiReduction .add [1] ⟨2, ![m, b]⟩ src acc h hφ hacc (ix2 k j) = ∑ i : Fin a, src (ix3 k i j) := by
  refine (Ideal.multiReduction_add_single src acc h hφ hacc (ix2 k j)).trans ?_
  show ∑ i : Fin a, src (h.lift (ix2 k j) i) = _
  refine Finset.sum_congr rfl fun i _ => congrArg src (funext fun ax => ?_)
  match ax with
  | ⟨0, _⟩ => exact Fin.ext rfl
  | ⟨1, _⟩ => exact Fin.ext rfl
  | ⟨2, _⟩ => exact Fin.ext rfl

/-- `sum_last_apply` at f32 from the zero pattern, its side condition spelt as an equation between patterns. -/
theorem sum_last_f32_apply {m a b : ℕ} (src : FVec Ideal ⟨3, ![m, a, b]⟩ .f32)
    (h : (⟨3, ![m, a, b]⟩ : Shape).Reduces [2] ⟨2, ![m, a]⟩) (hφ : FKind.Formats .f32)
    (hacc : (0x00000000#32 : BitVec 32) = 0x00000000#32) (k : Fin m) (i : Fin a) :
    multiReduction .add [2] ⟨2, ![m, a]⟩ src 0x00000000#32 h hφ hacc (ix2 k i) = ∑ j : Fin b, src (ix3 k i j) :=
  sum_last_apply src 0x00000000#32 h hφ hacc k i

/-- `sum_mid_apply` at f32 from the zero pattern, its side condition spelt as an equation between patterns. -/
theorem sum_mid_f32_apply {m a b : ℕ} (src : FVec Ideal ⟨3, ![m, a, b]⟩ .f32)
    (h : (⟨3, ![m, a, b]⟩ : Shape).Reduces [1] ⟨2, ![m, b]⟩) (hφ : FKind.Formats .f32)
    (hacc : (0x00000000#32 : BitVec 32) = 0x00000000#32) (k : Fin m) (j : Fin b) :
    multiReduction .add [1] ⟨2, ![m, b]⟩ src 0x00000000#32 h hφ hacc (ix2 k j) = ∑ i : Fin a, src (ix3 k i j) :=
  sum_mid_apply src 0x00000000#32 h hφ hacc k j

end Cert.StackLayout

end
-- ==== Proof.LibDotCols.lean ====
/-
  The plain matrix product read at one entry.

  For `x : M × K` and `y : K × N` the product with dimension numbers "contract axis 1 of the left with axis 0 of the right, keep
  axis 0 of the left and axis 1 of the right" is the `M × N` array whose entry `(p, q)` is `∑ k, x[p, k] · y[k, q]`. Over the extended
  reals, accumulated into the zero array, that is the whole statement; the work is only to identify the product's own operand
  indices — computed from the dimension numbers — with the coordinate pairs `(p, k)` and `(k, q)`, and its one-axis contraction
  index with the coordinate `k`. (The companion module reads the product that contracts the last axis of both operands.)
-/
import Idealize.ShloMosaic.PureOps.Ideal.Laws
import Idealize.ShloMosaic.Lib.ValueIdx

noncomputable section

open scoped BigOperators

namespace Cert.Lib.DotCols

open Idealize.ShloMosaic Idealize.ShloMosaic.ValueIdx

variable {M K N : Nat}

/-- The left operand's kept axis 0 follows the output's axis 0, whatever the contraction index. -/
theorem lhs_axis0 (i : (⟨2, ![M, N]⟩ : Shape).Idx) (c : (DotDims.plain M K N).contr.Idx) :
    ((DotDims.plain M K N).lhsIdx i c 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_cons_self)]
  rfl

/-- The right operand's kept axis 1 follows the output's axis 1. -/
theorem rhs_axis1 (i : (⟨2, ![M, N]⟩ : Shape).Idx) (c : (DotDims.plain M K N).contr.Idx) :
    ((DotDims.plain M K N).rhsIdx i c 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_cons_self)]
  rfl

/-- The left operand's contracted axis 1 and the right operand's contracted axis 0 follow the contraction index's one coordinate. -/
theorem lhs_axis1 (i : (⟨2, ![M, N]⟩ : Shape).Idx) (c : (DotDims.plain M K N).contr.Idx) :
    ((DotDims.plain M K N).lhsIdx i c 1).val = (c ⟨0, Nat.zero_lt_one⟩).val :=
  (DotDims.plain M K N).lhsIdx_val_of_single rfl i c
theorem rhs_axis0 (i : (⟨2, ![M, N]⟩ : Shape).Idx) (c : (DotDims.plain M K N).contr.Idx) :
    ((DotDims.plain M K N).rhsIdx i c 0).val = (c ⟨0, Nat.zero_lt_one⟩).val :=
  (DotDims.plain M K N).rhsIdx_val_of_single rfl i c

/-- So at output entry `(p, q)` and contraction coordinate `k` the left operand is read at `(p, k)` … -/
theorem lhsIdx_cols (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => exact lhs_axis0 _ _
    | ⟨1, _⟩ => exact (lhs_axis1 _ _).trans (contrEquiv1_symm_val (DotDims.plain M K N) K rfl rfl k))

/-- … and the right operand at `(k, q)`. -/
theorem rhsIdx_cols (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ => exact (rhs_axis0 _ _).trans (contrEquiv1_symm_val (DotDims.plain M K N) K rfl rfl k)
    | ⟨1, _⟩ => exact rhs_axis1 _ _)

/-- THE PLAIN PRODUCT AT AN ENTRY. Over the extended reals, a matrix product with these dimension numbers (any record `D` that
    spells them: `hD`), accumulated into the zero array, holds at `(p, q)` the sum `∑ k, x[p, k] · y[k, q]`. -/
theorem matmul_cols_apply {φ₁ φ₂ : FTy} (D : DotDims ⟨2, ![M, K]⟩ ⟨2, ![K, N]⟩ ⟨2, ![M, N]⟩) (hD : D = DotDims.plain M K N)
    (prec : Option ContractPrecision) (x : FVec Ideal ⟨2, ![M, K]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 p k) * y (ix2 k q) := by
  subst hD
  rw [Ideal.matmul_constant_zero_apply, ← Equiv.sum_comp (contrEquiv1 (DotDims.plain M K N) K rfl rfl).symm]
  refine Finset.sum_congr rfl fun k _ => ?_
  rw [lhsIdx_cols, rhsIdx_cols]

end Cert.Lib.DotCols

end
-- ==== Proof.KernelPayload.lean ====
/-
  The kernel's arithmetic, entry by entry, on the extended reals.

  Its input block is 4096 rows × 768 features: 16 batch rows of 256 tokens each, row 256·p + q holding token q
  of batch row p. The body regroups it as 16 × 256 × 768, sums over the tokens, subtracts token 0, scales by
  κ, multiplies by the weight block and adds the bias row: at (p, j)
    Σ_d ((Σ_q x[256p + q, d]) − x[256p, d]) · κ · w[d, j] + b[0, j].
-/
import proofs.«122367_g2000305705504031_pallasbulk_1013_27_alg».proof.Proof.Gen.KernelIdeal.Skeleton
import proofs.«122367_g2000305705504031_pallasbulk_1013_27_alg».proof.Proof.LibStackLayout
import proofs.«122367_g2000305705504031_pallasbulk_1013_27_alg».proof.Proof.LibDotCols
import Idealize.ShloMosaic.Lib.Pipeline.Value
import Idealize.ShloMosaic.Lib.ValueIdx

noncomputable section

open scoped BigOperators

namespace Cert.KernelIdeal.HeadValue

open Cert.KernelIdeal Cert.KernelIdeal.Gen Idealize.ShloMosaic Idealize.ShloMosaic.ValueIdx

/-- The scale 1/(S−1) as the program spells it: one float word, read at the extended reals. -/
abbrev κ : Ideal .f32 := Scalar.ofBits .f32 0x3B808081#32

/-- Row of the block that holds token `q` of the block's batch row `p`. -/
abbrev tokRow (p : Fin 16) (q : Fin 256) : Fin 4096 := ⟨256 * p.val + q.val, by omega⟩

/-- The block regrouped as 16 × 256 × 768, read at (p, q, d). -/
theorem regroup_apply (x0 : FVec Ideal S4096x768 .f32) (p : Fin 16) (q : Fin 256) (d : Fin 768) :
    shapeCast S16x256x768 (shapeCast S4096x768 x0 shapeCasts_S4096x768_S4096x768) shapeCasts_S4096x768_S16x256x768 (ix3 p q d)
      = x0 (ix2 (tokRow p q) d) := by
  rw [shapeCast_self]
  exact shapeCast_apply x0 _ (ix3 p q d) (ix2 (tokRow p q) d) (by
    rw [Shape.rowMajor_val_two, Shape.rowMajor_val_three]
    show (256 * p.val + q.val) * 768 + d.val = (p.val * 256 + q.val) * 768 + d.val
    omega)

theorem body_apply (x0 : FVec Ideal S4096x768 .f32) (x1 : FVec Ideal S768x1000 .f32) (x2 : FVec Ideal S1x1000 .f32)
    (p : Fin 16) (j : Fin 1000) :
    k0_pay1 x0 x1 x2 (ix2 p j)
      = (∑ d : Fin 768, ((∑ q : Fin 256, x0 (ix2 (tokRow p q) d)) - x0 (ix2 (tokRow p 0) d)) * κ * x1 (ix2 d j))
        + x2 (ix2 (0 : Fin 1) j) := by
  unfold k0_pay1
  dsimp only
  refine (addf_apply _ _ _).trans ?_
  congr 1
  · refine (Cert.Lib.DotCols.matmul_cols_apply (M := 16) (K := 768) (N := 1000) _ rfl none _ _ p j).trans ?_
    refine Finset.sum_congr rfl fun d _ => ?_
    refine congrArg (fun z => z * x1 (ix2 d j)) ?_
    refine (mulf_apply _ _ _).trans ?_
    refine congrArg (fun z => z * κ) ?_
    refine (subf_apply _ _ _).trans ?_
    congr 1
    · refine (Cert.StackLayout.sum_mid_f32_apply _ _ _ _ p d).trans ?_
      exact Finset.sum_congr rfl fun q _ => regroup_apply x0 p q d
    · refine (shapeCast_apply _ _ (ix2 p d) (ix3 p (0 : Fin 1) d) (by
        rw [Shape.rowMajor_val_three, Shape.rowMajor_val_two]
        show (p.val * 1 + 0) * 768 + d.val = p.val * 768 + d.val
        omega)).trans ?_
      refine (extractStridedSlice_apply _ _ _ (ix3 p (0 : Fin 1) d) (ix3 p (0 : Fin 256) d) (fun a => by
        match a with
        | ⟨0, _⟩ => exact (Nat.zero_add _).symm
        | ⟨1, _⟩ => exact (Nat.zero_add _).symm
        | ⟨2, _⟩ => exact (Nat.zero_add _).symm)).trans ?_
      exact regroup_apply x0 p 0 d
  · rw [shapeCast_self]
    exact broadcastTo_apply x2 _ (ix2 p j) (ix2 (0 : Fin 1) j) (fun a => by
      match a with
      | ⟨0, _⟩ => rfl
      | ⟨1, _⟩ => rfl)

end Cert.KernelIdeal.HeadValue

end
-- ==== Proof.HeadSpec.lean ====
/-
  The classification head, entry by entry.

  For activations X[b, s, d] (512 × 256 × 768), weights W[d, j] (768 × 1000), bias B[j] and a scale κ:
    pooled X b d = (Σ_{s < 256} X[b, s, d]) − X[b, 0, d]            (the sum over tokens 1:, written as both programs compute it)
    logit b j    = Σ_d pooled X b d · κ · W[d, j] + B[j]
  and `head` is the 512 × 1000 array of the logits. Both programs are shown to compute `head`.
-/
import Idealize.ShloMosaic.PureOps.Ideal
import Idealize.ShloMosaic.Lib.ValueIdx

noncomputable section

open scoped BigOperators

namespace Cert.Head

open Idealize.ShloMosaic Idealize.ShloMosaic.ValueIdx

abbrev SX : Shape := ⟨3, ![512, 256, 768]⟩
abbrev SW : Shape := ⟨2, ![768, 1000]⟩
abbrev SB : Shape := ⟨1, ![1000]⟩
abbrev SO : Shape := ⟨2, ![512, 1000]⟩

/-- The sum over tokens 1: of feature `d` of batch row `b`. -/
def pooled (X : SX.Idx → EReal) (b : Fin 512) (d : Fin 768) : EReal :=
  (∑ q : Fin 256, X (ix3 b q d)) - X (ix3 b (0 : Fin 256) d)

/-- One logit. -/
def logit (κ : EReal) (X : SX.Idx → EReal) (W : SW.Idx → EReal) (B : SB.Idx → EReal) (b : Fin 512) (j : Fin 1000) : EReal :=
  (∑ d : Fin 768, pooled X b d * κ * W (ix2 d j)) + B (ix1 j)

/-- The array of logits. -/
def head (κ : EReal) (X : SX.Idx → EReal) (W : SW.Idx → EReal) (B : SB.Idx → EReal) : SO.Idx → EReal :=
  fun i => logit κ X W B (i 0) (i 1)

/-- `head` at an index whose coordinates are known. -/
theorem head_at (κ : EReal) (X : SX.Idx → EReal) (W : SW.Idx → EReal) (B : SB.Idx → EReal) (i : SO.Idx)
    (b : Fin 512) (j : Fin 1000) (h0 : (i 0).val = b.val) (h1 : (i 1).val = j.val) :
    head κ X W B i = logit κ X W B b j := by
  have e : i = ix2 b j := funext fun a => by
    match a with
    | ⟨0, _⟩ => exact Fin.ext h0
    | ⟨1, _⟩ => exact Fin.ext h1
  subst e; rfl

end Cert.Head

end
-- ==== Proof.KernelValue.lean ====
/-
  What the kernel's run computes: the array of logits.

  The host lines view the activations as 131072 rows × 768 features (row 256·b + s holds token s of batch row b)
  and the bias as one row. Point t of the 32-point grid is handed rows 4096t … 4096t + 4095 — batch rows
  16t … 16t + 15 — and writes back rows 16t … 16t + 15 of the result. So what point t writes is block t of
  `head`, and the 32 blocks tile the result.
-/
import proofs.«122367_g2000305705504031_pallasbulk_1013_27_alg».proof.Proof.Gen.KernelIdeal.Value
import proofs.«122367_g2000305705504031_pallasbulk_1013_27_alg».proof.Proof.KernelPayload
import proofs.«122367_g2000305705504031_pallasbulk_1013_27_alg».proof.Proof.HeadSpec
import Idealize.ShloMosaic.Lib.StableHlo.Run
import Idealize.ShloMosaic.Lib.Pipeline.Value

set_option maxRecDepth 16384

noncomputable section

open scoped BigOperators

namespace Cert.KernelIdeal.HeadValue

open Cert.KernelIdeal Cert.KernelIdeal.Gen Cert.KernelIdeal.Value
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl

abbrev argX (c : Dev nD) : S512x256x768.Idx → EReal := m ((c : Thread nD τ).loc main_arg0)
abbrev argW (c : Dev nD) : S768x1000.Idx → EReal := m ((c : Thread nD τ).loc main_arg1)
abbrev argB (c : Dev nD) : S1000.Idx → EReal := m ((c : Thread nD τ).loc main_arg2)

/-- The result: the array of logits of the argument arrays. -/
abbrev result (c : Dev nD) : S512x1000.Idx → EReal := Cert.Head.head κ (argX m c) (argW m c) (argB m c)

/-! ## The arrays the host lines prepare -/

theorem V_x (c : Dev nD) : (V m c main_v0 : S131072x768.Idx → EReal)
    = shapeCast S131072x768 (argX m c) shapeCasts_S512x256x768_S131072x768 := by
  dsimp only [V, hostOps0]
  after_results
  rfl

theorem V_b (c : Dev nD) : (V m c main_v1 : S1x1000.Idx → EReal)
    = shapeCast S1x1000 (argB m c) shapeCasts_S1000_S1x1000 := by
  dsimp only [V, hostOps0]
  after_results
  rfl

/-! ## The blocks -/

theorem idx0_facts : ∀ t : Fin cfg0.N, win0_0.index t (0 : Fin 2) = t.val ∧ win0_0.index t (1 : Fin 2) = 0 :=
  (by decide +kernel : ∀ t : Fin grid0.N, _)
theorem idx1_facts : ∀ t : Fin cfg0.N, win0_1.index t (0 : Fin 2) = 0 ∧ win0_1.index t (1 : Fin 2) = 0 :=
  (by decide +kernel : ∀ t : Fin grid0.N, _)
theorem idx2_facts : ∀ t : Fin cfg0.N, win0_2.index t (0 : Fin 2) = 0 ∧ win0_2.index t (1 : Fin 2) = 0 :=
  (by decide +kernel : ∀ t : Fin grid0.N, _)
theorem idx3_facts : ∀ t : Fin cfg0.N, win0_3.index t (0 : Fin 2) = t.val ∧ win0_3.index t (1 : Fin 2) = 0 :=
  (by decide +kernel : ∀ t : Fin grid0.N, _)

/-- Row 256p + q of point `t`'s activation block is token q of batch row 16t + p. -/
theorem iblk0_apply (c : Dev nD) (t : Fin cfg0.N) (p : Fin 16) (q : Fin 256) (d : Fin 768) (i : S512x256x768.Idx)
    (h0 : (i 0).val = 16 * t.val + p.val) (h1 : (i 1).val = q.val) (h2 : (i 2).val = d.val) :
    (iblk m c 0 t : FVec Ideal S4096x768 .f32) (ix2 (tokRow p q) d) = argX m c i := by
  obtain ⟨e0, e1⟩ := idx0_facts t
  unfold iblk
  rw [View.read_apply]
  show (V m c main_v0 : S131072x768.Idx → EReal) _ = _
  rw [V_x]
  refine shapeCast_apply (argX m c) _ _ i ?_
  rw [Shape.rowMajor_val_three, Shape.rowMajor_val_two]
  show ((i 0).val * 256 + (i 1).val) * 768 + (i 2).val
      = (win0_0.index t (0 : Fin 2) * 4096 + 1 * (256 * p.val + q.val)) * 768 + (win0_0.index t (1 : Fin 2) * 768 + 1 * d.val)
  rw [e0, e1, h0, h1, h2]; omega

theorem iblk1_apply (c : Dev nD) (t : Fin cfg0.N) (d : Fin 768) (j : Fin 1000) :
    (iblk m c 1 t : FVec Ideal S768x1000 .f32) (ix2 d j) = argW m c (ix2 d j) := by
  obtain ⟨e0, e1⟩ := idx1_facts t
  unfold iblk
  rw [View.read_apply]
  show V m c main_arg1 _ = _
  rw [V_main_arg1]
  refine congrArg (argW m c) (funext fun a => Fin.ext ?_)
  match a with
  | ⟨0, _⟩ => show win0_1.index t (0 : Fin 2) * 768 + 1 * d.val = d.val; rw [e0]; omega
  | ⟨1, _⟩ => show win0_1.index t (1 : Fin 2) * 1000 + 1 * j.val = j.val; rw [e1]; omega

theorem iblk2_apply (c : Dev nD) (t : Fin cfg0.N) (j : Fin 1000) :
    (iblk m c 2 t : FVec Ideal S1x1000 .f32) (ix2 (0 : Fin 1) j) = argB m c (ix1 j) := by
  obtain ⟨e0, e1⟩ := idx2_facts t
  unfold iblk
  rw [View.read_apply]
  show (V m c main_v1 : S1x1000.Idx → EReal) _ = _
  rw [V_b]
  refine shapeCast_apply (argB m c) _ _ (ix1 j) ?_
  rw [Shape.rowMajor_val_one, Shape.rowMajor_val_two]
  show j.val = (win0_2.index t (0 : Fin 2) * 1 + 1 * 0) * 1000 + (win0_2.index t (1 : Fin 2) * 1000 + 1 * j.val)
  rw [e0, e1]; omega

/-- The body's arithmetic on blocks whose entries are known is a logit. -/
theorem body_logit (x0 : FVec Ideal S4096x768 .f32) (x1 : FVec Ideal S768x1000 .f32) (x2 : FVec Ideal S1x1000 .f32)
    (X : S512x256x768.Idx → EReal) (W : S768x1000.Idx → EReal) (B : S1000.Idx → EReal) (p : Fin 16) (j : Fin 1000) (b : Fin 512)
    (hx : ∀ (q : Fin 256) (d : Fin 768), x0 (ix2 (tokRow p q) d) = X (ix3 b q d))
    (hw : ∀ d : Fin 768, x1 (ix2 d j) = W (ix2 d j)) (hb : x2 (ix2 (0 : Fin 1) j) = B (ix1 j)) :
    k0_pay1 (F := Ideal) x0 x1 x2 (ix2 p j) = Cert.Head.logit κ X W B b j := by
  rw [body_apply]
  unfold Cert.Head.logit Cert.Head.pooled
  simp only [hx, hw, hb]

/-- The body's result at point `t`, entry `y` of its block, is the logit of the array entry the block puts there. -/
theorem block_eq (c : Dev nD) (t : Fin cfg0.N) (y : S16x1000.Idx) (i : S512x1000.Idx)
    (h0 : (i 0).val = 16 * t.val + (y 0).val) (h1 : (i 1).val = (y 1).val) :
    (k0_pay1 (iblk m c 0 t) (iblk m c 1 t) (iblk m c 2 t) : FVec Ideal S16x1000 .f32) y = result m c i := by
  obtain ⟨p, j, rfl⟩ : ∃ (p : Fin 16) (j : Fin 1000), y = ix2 p j := ⟨y 0, y 1, eq_ix2 y⟩
  have hN : t.val < 32 := lt_of_lt_of_eq t.isLt (show cfg0.N = 32 from N_0)
  have hb : 16 * t.val + p.val < 512 := by have := p.isLt; omega
  exact (body_logit (iblk m c 0 t) (iblk m c 1 t) (iblk m c 2 t) (argX m c) (argW m c) (argB m c) p j ⟨16 * t.val + p.val, hb⟩
      (fun q d => iblk0_apply m c t p q d _ rfl rfl rfl) (fun d => iblk1_apply m c t d j) (iblk2_apply m c t j)).trans
    (Cert.Head.head_at κ (argX m c) (argW m c) (argB m c) i ⟨16 * t.val + p.val, hb⟩ j h0 h1).symm

/-! ## From blocks to the array -/

theorem flushed_eq (c : Dev nD) (t : Fin cfg0.N) :
    (dats m 0 c).flushed 3 t = ((cfg0.win 3).blk t).view.read (Elt Ideal) (result m c) := by
  obtain ⟨e0, e1⟩ := idx3_facts t
  rw [flushed3]
  unfold out0_3
  rw [View.canon_unit_zero hz2]
  simp only [View.ld_unit_zero (S := S4096x768) hz2, View.ld_unit_zero (S := S768x1000) hz2, View.ld_unit_zero (S := S1x1000) hz2]
  funext y
  rw [View.read_apply]
  refine block_eq m c t y _ ?_ ?_
  · show win0_3.index t (0 : Fin 2) * 16 + 1 * (y 0).val = 16 * t.val + (y 0).val
    rw [e0]; omega
  · show win0_3.index t (1 : Fin 2) * 1000 + 1 * (y 1).val = (y 1).val
    rw [e1]; omega

theorem mem_blk (t : Fin cfg0.N) (i : S512x1000.Idx) :
    i ∈ ((cfg0.win 3).blk t).view.set ↔ ∀ a : Fin 2, win0_3.index t a * S16x1000.size a ≤ (i a).val ∧ (i a).val < win0_3.index t a * S16x1000.size a + S16x1000.size a := by
  show i ∈ ((View.whole main_v2).slice (win0_3.rect t)).set ↔ _
  rw [View.set_slice_whole, Rect.mem_set_unit]
  exact Iff.rfl

/-- Row i₀ of the result lies in the block of point i₀ / 16. -/
theorem cover (i : S512x1000.Idx) : ∃ t : Fin cfg0.N, (cfg0.win 3).flush t = true ∧ i ∈ ((cfg0.win 3).blk t).view.set := by
  have hi0 : (i 0).val < 512 := (i 0).isLt
  have hi1 : (i 1).val < 1000 := (i 1).isLt
  have hN : cfg0.N = 32 := N_0
  refine ⟨⟨(i 0).val / 16, by rw [hN]; omega⟩, flush0_3 _, ?_⟩
  obtain ⟨e0, e1⟩ := idx3_facts ⟨(i 0).val / 16, by rw [hN]; omega⟩
  rw [mem_blk]
  intro a
  match a with
  | ⟨0, _⟩ =>
    show win0_3.index _ (0 : Fin 2) * 16 ≤ (i 0).val ∧ (i 0).val < win0_3.index _ (0 : Fin 2) * 16 + 16
    rw [e0]; dsimp only; omega
  | ⟨1, _⟩ =>
    show win0_3.index _ (1 : Fin 2) * 1000 ≤ (i 1).val ∧ (i 1).val < win0_3.index _ (1 : Fin 2) * 1000 + 1000
    rw [e1]; omega

/-- The result array after the run is the array of logits. -/
theorem final (c : Dev nD) : (dats m 0 c).arrAt 3 cfg0.N = result m c :=
  (dats m 0 c).arrAt_eq_of_cover 3 (result m c) (fun t _ => flushed_eq m c t) cover

/-- The kernel's run, read: the result at the logits, the arguments unchanged. -/
theorem run : θ_run defs (onTc (τ := τ) (main (F := Ideal))) ⟨m, fun _ => 0, ρ⟩ fun r => ∀ c : Dev nD,
      r.2.mem ((c : Thread nD τ).loc main_v2) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.HeadValue

end
-- ==== Proof.RefPoints.lean ====
/-
  The pooled-mean reference kernel runs on a 2 × 32 grid: the first coordinate picks a tile of 256 batch rows,
  the second a tile of 8 tokens. Its body branches three times on the token-tile number s: at s = 0 it resets
  the running sum kept in its first scratch buffer, at s > 0 it adds to it, and at s = 31 it also finishes
  the tile (scale, matrix product, bias) into the output window. Point t of the grid has s = t mod 32, so
  the three conditions are facts about t mod 32, decided here once over the 64 points; so are the points
  where the output window is left untouched and not written back.
-/
import proofs.«122367_g2000305705504031_pallasbulk_1013_27_alg».proof.Proof.Gen.ReferenceIdeal.Frame
import proofs.«122367_g2000305705504031_pallasbulk_1013_27_alg».proof.Proof.Gen.ReferenceIdeal.Skeleton

set_option maxRecDepth 16384

noncomputable section

namespace Cert.ReferenceIdeal.Pooled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions -/

/-- "This is the first token tile" (s = 0), as the body computes it. -/
abbrev isFirst (i : grid0.Coords) : Prop :=
  (Scalar.cmpi .ne (Scalar.extui (Scalar.cmpi .eq (BitVec.ofNat 32 (i 1).val) 0#32)) 0#32) = 1#1
/-- "This is a later token tile" (s > 0), as the body computes it. -/
abbrev isLater (i : grid0.Coords) : Prop :=
  (Scalar.cmpi .ne (Scalar.extui (Scalar.cmpi .sgt (BitVec.ofNat 32 (i 1).val) 0#32)) 0#32) = 1#1
/-- "This is the last token tile" (s = 31), as the body computes it. -/
abbrev isLast (i : grid0.Coords) : Prop := k0_cond3 i = 1#1

theorem isFirst_iff : ∀ t : Fin cfg0.N, isFirst (grid0.coords t) ↔ t.val % 32 = 0 :=
  (by decide +kernel : ∀ t : Fin grid0.N, isFirst (grid0.coords t) ↔ t.val % 32 = 0)
theorem isLater_iff : ∀ t : Fin cfg0.N, isLater (grid0.coords t) ↔ t.val % 32 ≠ 0 :=
  (by decide +kernel : ∀ t : Fin grid0.N, isLater (grid0.coords t) ↔ t.val % 32 ≠ 0)
theorem isLast_iff : ∀ t : Fin cfg0.N, isLast (grid0.coords t) ↔ t.val % 32 = 31 :=
  (by decide +kernel : ∀ t : Fin grid0.N, isLast (grid0.coords t) ↔ t.val % 32 = 31)

/-! ## Where the windows are idle -/

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
/-- Away from the last token tile nothing is stored into the output window, -/
theorem idle3 : ∀ t : Fin cfg0.N, ¬isLast (grid0.coords t) → cfg0.idle 3 (grid0.coords t) = true := by decide +kernel
/-- and its block is not written back there; -/
theorem noFlush3 : ∀ t : Fin cfg0.N, ¬isLast (grid0.coords t) → (cfg0.win 3).flush t = false := by decide +kernel
/-- at the last token tile it is stored whole. -/
theorem live3 : ∀ t : Fin cfg0.N, isLast (grid0.coords t) → cfg0.idle 3 (grid0.coords t) = false := by decide +kernel

/-! ## The memrefs the body is called with -/

abbrev ms0 (t : Fin cfg0.N) : Memref sig .tc .vmem S256x8x768 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S768x1024 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x1024 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256x1024 .f32 := win0_3.stage (cfg0.slots t 3)
abbrev hs3 (t : Fin cfg0.N) : (ms3 t).IsWhole := hstage0_3 ((cfg0.slots t 3).cast nbuf0_3)
/-- The running sum's buffer, and the second scratch buffer (allocated, never used by this head type). -/
abbrev accM : Memref sig .tc .vmem S256x768 .f32 := Memref.whole cc0_scratch0
abbrev spareM : Memref sig .tc .vmem S256x768 .f32 := Memref.whole cc0_scratch1
/-- Views through which the contents of the running sum and of the output block are stated. -/
abbrev accV : View sig .tc .vmem S256x768 .f32 := accM.view
abbrev outV : View sig .tc .vmem S256x1024 .f32 := (Memref.whole cc0_stg3_0 : Memref sig .tc .vmem S256x1024 .f32).view

/-- What the pipeline lends the body besides the windows: the two scratch buffers at some contents and the
    generator register at some state. -/
theorem PhiA_eq (c : Dev nD) :
    (Pipeline.ΦA spec0 c : sProp 𝕄)
      = iprop(iprop((∃ d, owns (c : Thread nD τ) accM fullShare d) ∗ (∃ d, owns (c : Thread nD τ) spareM fullShare d)) ∗ (∃ r, prngReg c r)) := by
  unfold Pipeline.ΦA; rw [scopedRest0_eq]; simp only [accM, spareM, owns_whole]; try rfl

end Cert.ReferenceIdeal.Pooled

end
-- ==== Proof.RefRunFirst.lean ====
/-
  The body at the first token tile of a batch tile (s = 0): it sums the 8 tokens of its block, subtracts
  token 0, and stores the result over the running sum, whatever that held. Stated as a run from the input
  block's contents to the list of stores left in the running sum's buffer.
-/
import proofs.«122367_g2000305705504031_pallasbulk_1013_27_alg».proof.Proof.RefPoints

set_option maxRecDepth 16384

noncomputable section

namespace Cert.ReferenceIdeal.Pooled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the running sum's buffer at a first token tile, with the proof that it runs:
    the input block is handed back as found. -/
noncomputable def runFirst (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : isFirst i) (hL : ¬isLater i) (hE : ¬isLast i) (x0 : Vec F S256x8x768 .f32) :
    { LS : List (View.Piece (Elt F) S256x768 .f32) //
      ∀ (E : Set ℕ) (K : PUnit → sProp 𝕄),
        iprop(owns (c : Thread nD τ) arg2 fullShare x0 ∗ (∃ d, owns (c : Thread nD τ) arg6 fullShare d)
            ∗ (iprop(owns (c : Thread nD τ) arg2 fullShare x0 ∗ (∃ f, arg6.view.loc (c : Thread nD τ) ↦[arg6.view.set]{fullShare} arg6.view.writes (Elt F) f LS)) -∗ K ⟨⟩))
          ⊢ wp frame (wpE (defs₀ (F := F)) Variants.none c none) E (cc0__pooled_kernel i arg2 harg2 arg3 harg3 arg4 harg4 arg5 harg5 arg6 harg6 arg7 harg7) K } := by
  refine ⟨?_, fun E K => ?run⟩
  case run =>
    simp only [cc0__pooled_kernel_eq_skeleton]; unfold cc0__pooled_kernel_skel
    unfold owns
    iintro ⟨⟨%f0, %hf0, H0⟩, ⟨%d6, %f6, -, HS⟩, Hk⟩
    obtain rfl := harg2.eq_unread hf0
    sl_exec (disch := first | exact hF | exact hL | exact hE)
    sl_step
    iapply Hk
    isplitl [H0]
    · iexists _; isplitr; · ipureintro; exact harg2.read_unread _
      iexact H0
    iexists _; iexact HS

end Cert.ReferenceIdeal.Pooled

end
-- ==== Proof.RefRunMid.lean ====
/-
  The body at a later token tile that is not the last (0 < s < 31): it sums the 8 tokens of its block and adds
  the result to the running sum left by the tile before.
-/
import proofs.«122367_g2000305705504031_pallasbulk_1013_27_alg».proof.Proof.RefRunFirst

set_option maxRecDepth 16384

noncomputable section

namespace Cert.ReferenceIdeal.Pooled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The stores the body leaves in the running sum's buffer at a middle token tile, from the block and from what
    the running sum held, with the proof that it runs. -/
noncomputable def runMid (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : ¬isFirst i) (hL : isLater i) (hE : ¬isLast i) (x0 : Vec F S256x8x768 .f32) (xs : Vec F S256x768 .f32) :
    { LS : List (View.Piece (Elt F) S256x768 .f32) //
      ∀ (E : Set ℕ) (K : PUnit → sProp 𝕄),
        iprop(owns (c : Thread nD τ) arg2 fullShare x0 ∗ owns (c : Thread nD τ) arg6 fullShare xs
            ∗ (iprop(owns (c : Thread nD τ) arg2 fullShare x0 ∗ (∃ f, arg6.view.loc (c : Thread nD τ) ↦[arg6.view.set]{fullShare} arg6.view.writes (Elt F) f LS)) -∗ K ⟨⟩))
          ⊢ wp frame (wpE (defs₀ (F := F)) Variants.none c none) E (cc0__pooled_kernel i arg2 harg2 arg3 harg3 arg4 harg4 arg5 harg5 arg6 harg6 arg7 harg7) K } := by
  refine ⟨?_, fun E K => ?run⟩
  case run =>
    simp only [cc0__pooled_kernel_eq_skeleton]; unfold cc0__pooled_kernel_skel
    unfold owns
    iintro ⟨⟨%f0, %hf0, H0⟩, ⟨%fs, %hfs, HS⟩, Hk⟩
    obtain rfl := harg2.eq_unread hf0; obtain rfl := harg6.eq_unread hfs
    sl_exec (disch := first | exact hF | exact hL | exact hE)
    sl_step
    iapply Hk
    isplitl [H0]
    · iexists _; isplitr; · ipureintro; exact harg2.read_unread _
      iexact H0
    iexists _; iexact HS

end Cert.ReferenceIdeal.Pooled

end
-- ==== Proof.RefRunLast.lean ====
/-
  The body at the last token tile (s = 31): it adds its block's token sum to the running sum, reads the total
  back, scales it, multiplies by the padded weight block, adds the padded bias row, and stores the result
  over the output window's buffer, whatever that held.
-/
import proofs.«122367_g2000305705504031_pallasbulk_1013_27_alg».proof.Proof.RefRunMid

set_option maxRecDepth 16384

noncomputable section

namespace Cert.ReferenceIdeal.Pooled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
/-- The stores the body leaves in the output window's buffer and in the running sum's buffer at a last token
    tile, with the proof that it runs: the three input blocks are handed back as found. -/
noncomputable def runLast (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : ¬isFirst i) (hL : isLater i) (hE : isLast i) (x0 : Vec F S256x8x768 .f32) (x1 : Vec F S768x1024 .f32) (x2 : Vec F S1x1024 .f32) (xs : Vec F S256x768 .f32) :
    Σ' (L3 : List (View.Piece (Elt F) S256x1024 .f32)), { LS : List (View.Piece (Elt F) S256x768 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS)) -∗ K ⟨⟩))
          ⊢ wp frame (wpE (defs₀ (F := F)) Variants.none c none) E (cc0__pooled_kernel i arg2 harg2 arg3 harg3 arg4 harg4 arg5 harg5 arg6 harg6 arg7 harg7) K } := by
  refine ⟨?_, ?_, fun E K => ?run⟩
  case run =>
    simp only [cc0__pooled_kernel_eq_skeleton]; unfold cc0__pooled_kernel_skel
    unfold owns
    iintro ⟨⟨%f0, %hf0, H0⟩, ⟨%f1, %hf1, H1⟩, ⟨%f2, %hf2, H2⟩, ⟨%d3, %f3, -, H3⟩, ⟨%fs, %hfs, HS⟩, Hk⟩
    obtain rfl := harg2.eq_unread hf0; obtain rfl := harg3.eq_unread hf1; obtain rfl := harg4.eq_unread hf2; obtain rfl := harg6.eq_unread hfs
    sl_exec (disch := first | exact hF | exact hL | exact hE)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS

end Cert.ReferenceIdeal.Pooled

end
-- ==== Proof.RefFrame.lean ====
/-
  The frame of the pooled-mean reference, and what its run leaves behind.

  Point t of the 2 × 32 grid handles batch tile t / 32 and token tile s = t mod 32. The running sum kept in
  the first scratch buffer is carried from point to point: reset at s = 0, added to at s > 0. The output
  window's buffer is stored only at s = 31, and written back only there. `outsAt` names, by recursion on the
  point, what the output buffer and the running sum hold after each point; the tracking invariant says the
  running sum's buffer holds exactly that between points. With that proof data the body obligation holds
  case by case, and the library's frame theorem gives the run of the whole program.
-/
import proofs.«122367_g2000305705504031_pallasbulk_1013_27_alg».proof.Proof.RefRunLast

set_option maxRecDepth 16384

noncomputable section

namespace Cert.ReferenceIdeal.Pooled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What each case leaves -/

theorem coverFirst (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : isFirst i) (hL : ¬isLater i) (hE : ¬isLast i) (x0 : Vec F S256x8x768 .f32) (y : S256x768.Idx) :
    ∃ pc ∈ (runFirst c i arg2 harg2 arg3 harg3 arg4 harg4 arg5 harg5 arg6 harg6 arg7 harg7 hF hL hE x0).1, y ∈ pc.1.set :=
  View.cover_of_tiledL (runFirst c i arg2 harg2 arg3 harg3 arg4 harg4 arg5 harg5 arg6 harg6 arg7 harg7 hF hL hE x0).1 S256x768.size (by sl_kernel_rfl) y

/-- The running sum after a first token tile. -/
def accFirst (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : isFirst i) (hL : ¬isLater i) (hE : ¬isLast i) (x0 : Vec F S256x8x768 .f32) : Vec F S256x768 .f32 :=
  accV.read (Elt F) (accV.writes (Elt F) accV.junk (runFirst c i arg2 harg2 arg3 harg3 arg4 harg4 arg5 harg5 arg6 harg6 arg7 harg7 hF hL hE x0).1)

theorem coverMid (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : ¬isFirst i) (hL : isLater i) (hE : ¬isLast i) (x0 : Vec F S256x8x768 .f32) (xs : Vec F S256x768 .f32) (y : S256x768.Idx) :
    ∃ pc ∈ (runMid c i arg2 harg2 arg3 harg3 arg4 harg4 arg5 harg5 arg6 harg6 arg7 harg7 hF hL hE x0 xs).1, y ∈ pc.1.set :=
  View.cover_of_tiledL (runMid c i arg2 harg2 arg3 harg3 arg4 harg4 arg5 harg5 arg6 harg6 arg7 harg7 hF hL hE x0 xs).1 S256x768.size (by sl_kernel_rfl) y

/-- The running sum after a middle token tile, from what it held before. -/
def accMid (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : ¬isFirst i) (hL : isLater i) (hE : ¬isLast i) (x0 : Vec F S256x8x768 .f32) (xs : Vec F S256x768 .f32) : Vec F S256x768 .f32 :=
  accV.read (Elt F) (accV.writes (Elt F) accV.junk (runMid c i arg2 harg2 arg3 harg3 arg4 harg4 arg5 harg5 arg6 harg6 arg7 harg7 hF hL hE x0 xs).1)

theorem coverLastAcc (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : ¬isFirst i) (hL : isLater i) (hE : isLast i) (x0 : Vec F S256x8x768 .f32) (x1 : Vec F S768x1024 .f32) (x2 : Vec F S1x1024 .f32) (xs : Vec F S256x768 .f32) (y : S256x768.Idx) :
    ∃ pc ∈ (runLast c i arg2 harg2 arg3 harg3 arg4 harg4 arg5 harg5 arg6 harg6 arg7 harg7 hF hL hE x0 x1 x2 xs).2.1, y ∈ pc.1.set :=
  View.cover_of_tiledL (runLast c i arg2 harg2 arg3 harg3 arg4 harg4 arg5 harg5 arg6 harg6 arg7 harg7 hF hL hE x0 x1 x2 xs).2.1 S256x768.size (by sl_kernel_rfl) y

/-- The running sum after a last token tile. -/
def accLast (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : ¬isFirst i) (hL : isLater i) (hE : isLast i) (x0 : Vec F S256x8x768 .f32) (x1 : Vec F S768x1024 .f32) (x2 : Vec F S1x1024 .f32) (xs : Vec F S256x768 .f32) : Vec F S256x768 .f32 :=
  accV.read (Elt F) (accV.writes (Elt F) accV.junk (runLast c i arg2 harg2 arg3 harg3 arg4 harg4 arg5 harg5 arg6 harg6 arg7 harg7 hF hL hE x0 x1 x2 xs).2.1)

theorem coverLastOut (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : ¬isFirst i) (hL : isLater i) (hE : isLast i) (x0 : Vec F S256x8x768 .f32) (x1 : Vec F S768x1024 .f32) (x2 : Vec F S1x1024 .f32) (xs : Vec F S256x768 .f32) (y : S256x1024.Idx) :
    ∃ pc ∈ (runLast c i arg2 harg2 arg3 harg3 arg4 harg4 arg5 harg5 arg6 harg6 arg7 harg7 hF hL hE x0 x1 x2 xs).1, y ∈ pc.1.set :=
  View.cover_of_tiledL (runLast c i arg2 harg2 arg3 harg3 arg4 harg4 arg5 harg5 arg6 harg6 arg7 harg7 hF hL hE x0 x1 x2 xs).1 S256x1024.size (by sl_kernel_rfl) y

/-- The output window's buffer after a last token tile. -/
def outLast (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : ¬isFirst i) (hL : isLater i) (hE : isLast i) (x0 : Vec F S256x8x768 .f32) (x1 : Vec F S768x1024 .f32) (x2 : Vec F S1x1024 .f32) (xs : Vec F S256x768 .f32) : Vec F S256x1024 .f32 :=
  outV.read (Elt F) (outV.writes (Elt F) outV.junk (runLast c i arg2 harg2 arg3 harg3 arg4 harg4 arg5 harg5 arg6 harg6 arg7 harg7 hF hL hE x0 x1 x2 xs).1)

/-- A placeholder for the output buffer at the points that store nothing into it: never consulted. -/
def outIdle : Vec F S256x1024 .f32 := outV.read (Elt F) outV.junk
/-- A placeholder for the running sum before the very first point: never consulted. -/
def accNone : Vec F S256x768 .f32 := accV.read (Elt F) accV.junk

/-! ## Point by point -/

/-- What point `t` leaves in the output window's buffer and in the running sum, given what the running sum
    held before it: the case that t mod 32 selects, run on the point's memrefs and input blocks. -/
def stepAt (c : Dev nD) (t : Fin cfg0.N) (prev : Vec F S256x768 .f32) : Vec F S256x1024 .f32 × Vec F S256x768 .f32 :=
  if h0 : t.val % 32 = 0 then
    (outIdle, accFirst c (grid0.coords t) (ms0 t) (hs0 t) (ms1 t) (hs1 t) (ms2 t) (hs2 t) (ms3 t) (hs3 t) accM (Memref.isWhole_whole _) spareM (Memref.isWhole_whole _) ((isFirst_iff t).mpr h0) (fun h => (isLater_iff t).mp h h0) (fun h => by have := (isLast_iff t).mp h; omega) (iblk m c 0 t))
  else if h1 : t.val % 32 = 31 then
    (outLast c (grid0.coords t) (ms0 t) (hs0 t) (ms1 t) (hs1 t) (ms2 t) (hs2 t) (ms3 t) (hs3 t) accM (Memref.isWhole_whole _) spareM (Memref.isWhole_whole _) (fun h => h0 ((isFirst_iff t).mp h)) ((isLater_iff t).mpr h0) ((isLast_iff t).mpr h1) (iblk m c 0 t) (iblk m c 1 t) (iblk m c 2 t) prev,
     accLast c (grid0.coords t) (ms0 t) (hs0 t) (ms1 t) (hs1 t) (ms2 t) (hs2 t) (ms3 t) (hs3 t) accM (Memref.isWhole_whole _) spareM (Memref.isWhole_whole _) (fun h => h0 ((isFirst_iff t).mp h)) ((isLater_iff t).mpr h0) ((isLast_iff t).mpr h1) (iblk m c 0 t) (iblk m c 1 t) (iblk m c 2 t) prev)
  else
    (outIdle, accMid c (grid0.coords t) (ms0 t) (hs0 t) (ms1 t) (hs1 t) (ms2 t) (hs2 t) (ms3 t) (hs3 t) accM (Memref.isWhole_whole _) spareM (Memref.isWhole_whole _) (fun h => h0 ((isFirst_iff t).mp h)) ((isLater_iff t).mpr h0) (fun h => h1 ((isLast_iff t).mp h)) (iblk m c 0 t) prev)

theorem stepAt_first (c : Dev nD) (t : Fin cfg0.N) (prev : Vec F S256x768 .f32) (h0 : t.val % 32 = 0) :
    stepAt m c t prev = (outIdle, accFirst c (grid0.coords t) (ms0 t) (hs0 t) (ms1 t) (hs1 t) (ms2 t) (hs2 t) (ms3 t) (hs3 t) accM (Memref.isWhole_whole _) spareM (Memref.isWhole_whole _) ((isFirst_iff t).mpr h0) (fun h => (isLater_iff t).mp h h0) (fun h => by have := (isLast_iff t).mp h; omega) (iblk m c 0 t)) :=
  dif_pos h0

theorem stepAt_last (c : Dev nD) (t : Fin cfg0.N) (prev : Vec F S256x768 .f32) (h0 : ¬t.val % 32 = 0) (h1 : t.val % 32 = 31) :
    stepAt m c t prev = (outLast c (grid0.coords t) (ms0 t) (hs0 t) (ms1 t) (hs1 t) (ms2 t) (hs2 t) (ms3 t) (hs3 t) accM (Memref.isWhole_whole _) spareM (Memref.isWhole_whole _) (fun h => h0 ((isFirst_iff t).mp h)) ((isLater_iff t).mpr h0) ((isLast_iff t).mpr h1) (iblk m c 0 t) (iblk m c 1 t) (iblk m c 2 t) prev,
     accLast c (grid0.coords t) (ms0 t) (hs0 t) (ms1 t) (hs1 t) (ms2 t) (hs2 t) (ms3 t) (hs3 t) accM (Memref.isWhole_whole _) spareM (Memref.isWhole_whole _) (fun h => h0 ((isFirst_iff t).mp h)) ((isLater_iff t).mpr h0) ((isLast_iff t).mpr h1) (iblk m c 0 t) (iblk m c 1 t) (iblk m c 2 t) prev) :=
  (dif_neg h0).trans (dif_pos h1)

theorem stepAt_mid (c : Dev nD) (t : Fin cfg0.N) (prev : Vec F S256x768 .f32) (h0 : ¬t.val % 32 = 0) (h1 : ¬t.val % 32 = 31) :
    stepAt m c t prev = (outIdle, accMid c (grid0.coords t) (ms0 t) (hs0 t) (ms1 t) (hs1 t) (ms2 t) (hs2 t) (ms3 t) (hs3 t) accM (Memref.isWhole_whole _) spareM (Memref.isWhole_whole _) (fun h => h0 ((isFirst_iff t).mp h)) ((isLater_iff t).mpr h0) (fun h => h1 ((isLast_iff t).mp h)) (iblk m c 0 t) prev) :=
  (dif_neg h0).trans (dif_neg h1)

/-- What the output window's buffer and the running sum hold after the body at position `n`. -/
def outsAt (c : Dev nD) : (n : ℕ) → n < cfg0.N → Vec F S256x1024 .f32 × Vec F S256x768 .f32
  | 0, hn => stepAt m c ⟨0, hn⟩ accNone
  | n + 1, hn => stepAt m c ⟨n + 1, hn⟩ (outsAt c n (Nat.lt_of_succ_lt hn)).2

/-- The running sum the body finds at point `t`: what the point before left (nothing meaningful before the first). -/
def prevAcc (c : Dev nD) (t : Fin cfg0.N) : Vec F S256x768 .f32 :=
  if hz : t.val = 0 then accNone else (outsAt m c (t.val - 1) (Nat.lt_of_le_of_lt (Nat.sub_le _ _) t.isLt)).2

theorem outsAt_eq (c : Dev nD) (t : Fin cfg0.N) : outsAt m c t.val t.isLt = stepAt m c t (prevAcc m c t) := by
  obtain ⟨n, hn⟩ := t
  cases n with
  | zero => rfl
  | succ n => rfl

theorem prevAcc_pos (c : Dev nD) (t : Fin cfg0.N) (hz : t.val ≠ 0) :
    prevAcc m c t = (outsAt m c (t.val - 1) (Nat.lt_of_le_of_lt (Nat.sub_le _ _) t.isLt)).2 := dif_neg hz

/-! ## The invariant between points -/

/-- Before the first point: whatever the launch lends. Afterwards: the running sum's buffer at what the point
    before left, the spare scratch buffer and the generator register at anything. -/
def PhiS (c : Dev nD) : (n : ℕ) → n ≤ cfg0.N → sProp 𝕄
  | 0, _ => Pipeline.ΦA spec0 c
  | n + 1, hn => iprop(iprop(owns (c : Thread nD τ) accM fullShare ((outsAt m c n hn).2) ∗ (∃ d, owns (c : Thread nD τ) spareM fullShare d)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) accM fullShare ((outsAt m c n hn).2) ∗ (∃ d, owns (c : Thread nD τ) spareM fullShare d)) ∗ (∃ r, prngReg c r)) := rfl

theorem PhiS_pos (c : Dev nD) (n : ℕ) (h : n ≤ cfg0.N) (hz : n ≠ 0) :
    PhiS m c n h = iprop(iprop(owns (c : Thread nD τ) accM fullShare ((outsAt m c (n - 1) (by omega)).2) ∗ (∃ d, owns (c : Thread nD τ) spareM fullShare d)) ∗ (∃ r, prngReg c r)) := by
  cases n with
  | zero => exact absurd rfl hz
  | succ n => rfl

/-! ## The proof data -/

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = (outsAt m c t.val t.isLt).1 := by dsimp only [dats]

theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]
theorem leaves3_last (c : Dev nD) (t : Fin cfg0.N) (hE : isLast (grid0.coords t)) :
    (dats m 0 c).leavesExact 3 t = owns (c : Thread nD τ) (ms3 t) fullShare ((outsAt m c t.val t.isLt).1) := by
  unfold Dat.leavesExact; rw [live3 t hE, after3]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t)

set_option maxHeartbeats 4800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2]
  have hN : t.val < 64 := lt_of_lt_of_eq t.isLt (show cfg0.N = 64 from N_0)
  rw [outsAt_eq m c t]
  by_cases h0 : t.val % 32 = 0
  · have hE : ¬isLast (grid0.coords t) := fun h => by have := (isLast_iff t).mp h; omega
    rw [Dat.leavesExact_idle (dats m 0 c) 3 t (idle3 t hE) (noFlush3 t hE)]
    rw [stepAt_first m c t _ h0]
    unfold accFirst; (try dsimp only)
    by_cases hz : t.val = 0
    · rw [PhiS_castSucc m c t, PhiS_zero m c _ _ hz, PhiA_eq]
      iintro ⟨⟨⟨HS, HS1⟩, Hg⟩, Ho, ⟨%d0, H0⟩, ⟨%d1, H1⟩, ⟨%d2, H2⟩, ⟨%d3, H3⟩⟩
      iapply ((runFirst c (grid0.coords t) _ _ _ _ _ _ _ _ _ _ _ _ ((isFirst_iff t).mpr h0) (fun h => (isLater_iff t).mp h h0) (fun h => by have := (isLast_iff t).mp h; omega) (iblk m c 0 t)).2 Set.univ _)
      isplitl [H0]; · iexact H0
      isplitl [HS]; · iexact HS
      iintro ⟨H0, ⟨%es, HS⟩⟩
      isplitl [HS HS1 Hg]
      · isplitl [HS HS1]
        · isplitl [HS]
          · unfold owns; iexists _; isplitr
            swap; · iexact HS
            ipureintro; exact View.read_writes_of_cover _ _ _ _ _ (coverFirst c _ _ _ _ _ _ _ _ _ _ _ _ _ _ _ _ _)
          iexact HS1
        iexact Hg
      isplitl [Ho]; · iexact Ho
      isplitl [H0]; · iexact H0
      isplitl [H1]; · iexact H1
      isplitl [H2]; · iexact H2
      iexists _; iexact H3
    · rw [PhiS_castSucc m c t, PhiS_pos m c _ _ hz]
      iintro ⟨⟨⟨HS, HS1⟩, Hg⟩, Ho, ⟨%d0, H0⟩, ⟨%d1, H1⟩, ⟨%d2, H2⟩, ⟨%d3, H3⟩⟩
      iapply ((runFirst c (grid0.coords t) _ _ _ _ _ _ _ _ _ _ _ _ ((isFirst_iff t).mpr h0) (fun h => (isLater_iff t).mp h h0) (fun h => by have := (isLast_iff t).mp h; omega) (iblk m c 0 t)).2 Set.univ _)
      isplitl [H0]; · iexact H0
      isplitl [HS]; · iexists _; iexact HS
      iintro ⟨H0, ⟨%es, HS⟩⟩
      isplitl [HS HS1 Hg]
      · isplitl [HS HS1]
        · isplitl [HS]
          · unfold owns; iexists _; isplitr
            swap; · iexact HS
            ipureintro; exact View.read_writes_of_cover _ _ _ _ _ (coverFirst c _ _ _ _ _ _ _ _ _ _ _ _ _ _ _ _ _)
          iexact HS1
        iexact Hg
      isplitl [Ho]; · iexact Ho
      isplitl [H0]; · iexact H0
      isplitl [H1]; · iexact H1
      isplitl [H2]; · iexact H2
      iexists _; iexact H3
  · have hz : t.val ≠ 0 := fun h => h0 (by rw [h])
    rw [prevAcc_pos m c t hz]
    by_cases h1 : t.val % 32 = 31
    · rw [leaves3_last m c t ((isLast_iff t).mpr h1), outsAt_eq m c t, prevAcc_pos m c t hz]
      rw [stepAt_last m c t _ h0 h1]
      unfold outLast accLast; (try dsimp only)
      rw [PhiS_castSucc m c t, PhiS_pos m c _ _ hz]
      iintro ⟨⟨⟨HS, HS1⟩, Hg⟩, Ho, ⟨%d0, H0⟩, ⟨%d1, H1⟩, ⟨%d2, H2⟩, ⟨%d3, H3⟩⟩
      iapply ((runLast c (grid0.coords t) _ _ _ _ _ _ _ _ _ _ _ _ (fun h => h0 ((isFirst_iff t).mp h)) ((isLater_iff t).mpr h0) ((isLast_iff t).mpr h1) (iblk m c 0 t) (iblk m c 1 t) (iblk m c 2 t) _).2.2 Set.univ _)
      isplitl [H0]; · iexact H0
      isplitl [H1]; · iexact H1
      isplitl [H2]; · iexact H2
      isplitl [H3]; · iexists _; iexact H3
      isplitl [HS]; · iexact HS
      iintro ⟨H0, H1, H2, ⟨%e3, H3⟩, ⟨%es, HS⟩⟩
      isplitl [HS HS1 Hg]
      · isplitl [HS HS1]
        · isplitl [HS]
          · unfold owns; iexists _; isplitr
            swap; · iexact HS
            ipureintro; exact View.read_writes_of_cover _ _ _ _ _ (coverLastAcc c _ _ _ _ _ _ _ _ _ _ _ _ _ _ _ _ _ _ _ _)
          iexact HS1
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverLastOut c _ _ _ _ _ _ _ _ _ _ _ _ _ _ _ _ _ _ _ _)
    · have hE : ¬isLast (grid0.coords t) := fun h => h1 ((isLast_iff t).mp h)
      rw [Dat.leavesExact_idle (dats m 0 c) 3 t (idle3 t hE) (noFlush3 t hE)]
      rw [stepAt_mid m c t _ h0 h1]
      unfold accMid; (try dsimp only)
      rw [PhiS_castSucc m c t, PhiS_pos m c _ _ hz]
      iintro ⟨⟨⟨HS, HS1⟩, Hg⟩, Ho, ⟨%d0, H0⟩, ⟨%d1, H1⟩, ⟨%d2, H2⟩, ⟨%d3, H3⟩⟩
      iapply ((runMid c (grid0.coords t) _ _ _ _ _ _ _ _ _ _ _ _ (fun h => h0 ((isFirst_iff t).mp h)) ((isLater_iff t).mpr h0) (fun h => h1 ((isLast_iff t).mp h)) (iblk m c 0 t) _).2 Set.univ _)
      isplitl [H0]; · iexact H0
      isplitl [HS]; · iexact HS
      iintro ⟨H0, ⟨%es, HS⟩⟩
      isplitl [HS HS1 Hg]
      · isplitl [HS HS1]
        · isplitl [HS]
          · unfold owns; iexists _; isplitr
            swap; · iexact HS
            ipureintro; exact View.read_writes_of_cover _ _ _ _ _ (coverMid c _ _ _ _ _ _ _ _ _ _ _ _ _ _ _ _ _ _)
          iexact HS1
        iexact Hg
      isplitl [Ho]; · iexact Ho
      isplitl [H0]; · iexact H0
      isplitl [H1]; · iexact H1
      isplitl [H2]; · iexact H2
      iexists _; iexact H3

theorem body_obligation (c : Dev nD) : BodyObligation (dats (F := F) m 0 c) (defs₀ (F := F)) Variants.none () Set.univ := fun t => by
  rw [bigSep_W0, bigSep_W0]
  exact sound_body m c t

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨⟨HS, HS1⟩, Hg⟩
  isplitl [HS HS1]
  · isplitl [HS]
    · iexists _; iexact HS
    iexact HS1
  iexact Hg

theorem hout (c : Dev nD) : (dats m 0 c).Φ (Fin.last cfg0.N) ⊢ Pipeline.ΦA spec0 c :=
  Phi_out m c _ (by rw [Fin.val_last]; have : cfg0.N = 64 := N_0; omega)

/-! ## The run and the frame -/

set_option backward.isDefEq.respectTransparency.types false in
/-- Every weakly fair execution of the program terminates without a fault, each array of the pipeline ending at what
    the library computes from the proof data and every other buffer as the line after the region leaves it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.ReferenceIdeal.Pooled

end
-- ==== Proof.RefPieces.lean ====
/-
  What each case of the pooled-mean reference's body leaves, as terms of the body's arithmetic.

  Every store of the body writes a whole buffer, so what a buffer holds afterwards is the last value stored:
  the first token tile leaves (the block's token sum) − (the block's token 0) in the running sum; a later
  tile leaves (what the running sum held) + (the block's token sum); the last tile moreover leaves, in the
  output buffer, the finishing arithmetic applied to that new running sum, the weight block and the bias row.
-/
import proofs.«122367_g2000305705504031_pallasbulk_1013_27_alg».proof.Proof.RefFrame
import Idealize.ShloMosaic.Lib.Pipeline.Value

set_option maxRecDepth 16384

noncomputable section

namespace Cert.ReferenceIdeal.Pooled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

theorem hz2 : (![0, 0] : Fin 2 → Nat) = fun _ => 0 := funext fun a => by fin_cases a <;> rfl
theorem hz3 : (![0, 0, 0] : Fin 3 → Nat) = fun _ => 0 := funext fun a => by fin_cases a <;> rfl

/-- Token 0 of each row of an input block, as the body loads it: the block read through its first-token rectangle. -/
abbrev tokenZero (x0 : Vec F S256x8x768 .f32) : Vec F S256x1x768 .f32 :=
  View.ld x0 (Rect.unit (s := S256x8x768) ![0, 0, 0] S256x1x768.size inb_S256x8x768_S256x1x768_0_0_0)

theorem accFirst_eq (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : isFirst i) (hL : ¬isLater i) (hE : ¬isLast i) (x0 : Vec F S256x8x768 .f32) :
    accFirst c i arg2 harg2 arg3 harg3 arg4 harg4 arg5 harg5 arg6 harg6 arg7 harg7 hF hL hE x0 = k0_pay2 x0 (tokenZero x0) := by
  unfold accFirst
  rw [View.read_writes_eq_canon _ _ _ (coverFirst c i arg2 harg2 arg3 harg3 arg4 harg4 arg5 harg5 arg6 harg6 arg7 harg7 hF hL hE x0)]
  unfold runFirst
  dsimp only
  try sl_unfold_words
  rw [View.canon_unit_zero hz2]
  simp only [View.readAt_eq_ld, harg2.read_unread, View.ld_unit_zero (S := S256x8x768) hz3]

theorem accMid_eq (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : ¬isFirst i) (hL : isLater i) (hE : ¬isLast i) (x0 : Vec F S256x8x768 .f32) (xs : Vec F S256x768 .f32) :
    accMid c i arg2 harg2 arg3 harg3 arg4 harg4 arg5 harg5 arg6 harg6 arg7 harg7 hF hL hE x0 xs = k0_pay3 x0 xs := by
  unfold accMid
  rw [View.read_writes_eq_canon _ _ _ (coverMid c i arg2 harg2 arg3 harg3 arg4 harg4 arg5 harg5 arg6 harg6 arg7 harg7 hF hL hE x0 xs)]
  unfold runMid
  dsimp only
  try sl_unfold_words
  rw [View.canon_unit_zero hz2]
  simp only [View.readAt_eq_ld, harg2.read_unread, harg6.read_unread, View.ld_unit_zero (S := S256x8x768) hz3, View.ld_unit_zero (S := S256x768) hz2]

theorem accLast_eq (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : ¬isFirst i) (hL : isLater i) (hE : isLast i) (x0 : Vec F S256x8x768 .f32) (x1 : Vec F S768x1024 .f32) (x2 : Vec F S1x1024 .f32) (xs : Vec F S256x768 .f32) :
    accLast c i arg2 harg2 arg3 harg3 arg4 harg4 arg5 harg5 arg6 harg6 arg7 harg7 hF hL hE x0 x1 x2 xs = k0_pay3 x0 xs := by
  unfold accLast
  rw [View.read_writes_eq_canon _ _ _ (coverLastAcc c i arg2 harg2 arg3 harg3 arg4 harg4 arg5 harg5 arg6 harg6 arg7 harg7 hF hL hE x0 x1 x2 xs)]
  unfold runLast
  dsimp only
  try sl_unfold_words
  rw [View.canon_unit_zero hz2]
  simp only [View.readAt_eq_ld, harg2.read_unread, harg6.read_unread, View.ld_unit_zero (S := S256x8x768) hz3, View.ld_unit_zero (S := S256x768) hz2]

theorem outLast_eq (c : Dev nD) (i : grid0.Coords) (arg2 : Memref sig .tc .vmem S256x8x768 .f32) (harg2 : arg2.IsWhole) (arg3 : Memref sig .tc .vmem S768x1024 .f32) (harg3 : arg3.IsWhole) (arg4 : Memref sig .tc .vmem S1x1024 .f32) (harg4 : arg4.IsWhole) (arg5 : Memref sig .tc .vmem S256x1024 .f32) (harg5 : arg5.IsWhole) (arg6 : Memref sig .tc .vmem S256x768 .f32) (harg6 : arg6.IsWhole) (arg7 : Memref sig .tc .vmem S256x768 .f32) (harg7 : arg7.IsWhole)
    (hF : ¬isFirst i) (hL : isLater i) (hE : isLast i) (x0 : Vec F S256x8x768 .f32) (x1 : Vec F S768x1024 .f32) (x2 : Vec F S1x1024 .f32) (xs : Vec F S256x768 .f32) :
    outLast c i arg2 harg2 arg3 harg3 arg4 harg4 arg5 harg5 arg6 harg6 arg7 harg7 hF hL hE x0 x1 x2 xs = k0_pay4 (k0_pay3 x0 xs) x1 x2 := by
  unfold outLast
  rw [View.read_writes_eq_canon _ _ _ (coverLastOut c i arg2 harg2 arg3 harg3 arg4 harg4 arg5 harg5 arg6 harg6 arg7 harg7 hF hL hE x0 x1 x2 xs)]
  unfold runLast
  dsimp only
  try sl_unfold_words
  rw [View.canon_unit_zero hz2, View.readCov_unit_zero (S := S256x768) _ hz2]
  simp only [View.readAt_eq_ld, harg2.read_unread, harg3.read_unread, harg4.read_unread, harg6.read_unread,
    View.ld_unit_zero (S := S256x8x768) hz3, View.ld_unit_zero (S := S256x768) hz2,
    View.ld_unit_zero (S := S768x1024) hz2, View.ld_unit_zero (S := S1x1024) hz2]

end Cert.ReferenceIdeal.Pooled

end
-- ==== Proof.RefPayloads.lean ====
/-
  The pooled-mean reference's arithmetic, entry by entry, on the extended reals.

  For a block x of 256 rows × 8 tokens × 768 features: the token sum at (r, d) is Σ_k x[r, k, d]; the reset
  value is that sum less x[r, 0, d]; an accumulation adds the sum to what was there; and the finish at
  (r, j) is Σ_d acc[r, d] · κ · w[d, j] + b[0, j], with κ the scale the program spells as a float word.
-/
import proofs.«122367_g2000305705504031_pallasbulk_1013_27_alg».proof.Proof.Gen.ReferenceIdeal.Skeleton
import proofs.«122367_g2000305705504031_pallasbulk_1013_27_alg».proof.Proof.LibStackLayout
import proofs.«122367_g2000305705504031_pallasbulk_1013_27_alg».proof.Proof.LibDotCols
import Idealize.ShloMosaic.Lib.Pipeline.Value
import Idealize.ShloMosaic.Lib.ValueIdx

noncomputable section

open scoped BigOperators

namespace Cert.ReferenceIdeal.PooledValue

open Cert.ReferenceIdeal Cert.ReferenceIdeal.Gen Idealize.ShloMosaic Idealize.ShloMosaic.ValueIdx

/-- The scale 1/(S−1) as the program spells it: one float word, read at the extended reals. -/
abbrev κ : Ideal .f32 := Scalar.ofBits .f32 0x3B808081#32

theorem tokenSum_apply (v0 : FVec Ideal S256x8x768 .f32) (r : Fin 256) (d : Fin 768) :
    k0_pay1 v0 (ix2 r d) = ∑ k : Fin 8, v0 (ix3 r k d) := by
  unfold k0_pay1
  exact Cert.StackLayout.sum_mid_f32_apply v0 _ _ _ r d

theorem reset_apply (v0 : FVec Ideal S256x8x768 .f32) (v11 : FVec Ideal S256x1x768 .f32) (r : Fin 256) (d : Fin 768) :
    k0_pay2 v0 v11 (ix2 r d) = (∑ k : Fin 8, v0 (ix3 r k d)) - v11 (ix3 r (0 : Fin 1) d) := by
  show shapeCast S256x768 (subf (k0_pay1 v0) (shapeCast S256x768 v11 _)) _ (ix2 r d) = _
  rw [shapeCast_self]
  refine (subf_apply _ _ _).trans ?_
  rw [tokenSum_apply]
  refine congrArg (fun z => (∑ k : Fin 8, v0 (ix3 r k d)) - z) ?_
  exact shapeCast_apply v11 _ (ix2 r d) (ix3 r (0 : Fin 1) d) (by
    rw [Shape.rowMajor_val_three, Shape.rowMajor_val_two]
    show (r.val * 1 + 0) * 768 + d.val = r.val * 768 + d.val
    omega)

theorem accumulate_apply (v0 : FVec Ideal S256x8x768 .f32) (v11 : FVec Ideal S256x768 .f32) (r : Fin 256) (d : Fin 768) :
    k0_pay3 v0 v11 (ix2 r d) = v11 (ix2 r d) + ∑ k : Fin 8, v0 (ix3 r k d) := by
  show shapeCast S256x768 (addf v11 (k0_pay1 v0)) _ (ix2 r d) = _
  rw [shapeCast_self]
  exact (addf_apply _ _ _).trans (congrArg (fun z => v11 (ix2 r d) + z) (tokenSum_apply v0 r d))

theorem finish_apply (v11 : FVec Ideal S256x768 .f32) (v14 : FVec Ideal S768x1024 .f32) (v17 : FVec Ideal S1x1024 .f32)
    (r : Fin 256) (j : Fin 1024) :
    k0_pay4 v11 v14 v17 (ix2 r j) = (∑ d : Fin 768, v11 (ix2 r d) * κ * v14 (ix2 d j)) + v17 (ix2 (0 : Fin 1) j) := by
  show addf (matmul dot_S256x768_S768x1024_S256x1024_1_0_0_1_n_n none (mulf v11 (broadcast S256x768 κ)) (shapeCast S768x1024 v14 _) (constant S256x1024 .f32 0x00000000#32))
      (broadcastTo S256x1024 (shapeCast S1x1024 v17 _) _) (ix2 r j) = _
  rw [shapeCast_self, shapeCast_self]
  refine (addf_apply _ _ _).trans ?_
  congr 1
  · exact Cert.Lib.DotCols.matmul_cols_apply (M := 256) (K := 768) (N := 1024) _ rfl none _ _ r j
  · exact broadcastTo_apply v17 _ (ix2 r j) (ix2 (0 : Fin 1) j) (fun a => by
      match a with
      | ⟨0, _⟩ => rfl
      | ⟨1, _⟩ => rfl)

end Cert.ReferenceIdeal.PooledValue

end
-- ==== Proof.PoolAlgebra.lean ====
/-
  The mean over tokens 1: taken tile by tile.

  Fix a batch row and a feature, and let x k be the entry at token k. One program adds all 256 tokens and then
  subtracts token 0. The other walks the tokens in 32 tiles of 8: after tile 0 it holds (the tile's sum) − x 0,
  and after each later tile it adds that tile's sum. On the extended reals a − b is a + (−b) and addition is
  commutative and associative, so after tile s the second program holds (the sum of the first 8·(s+1) tokens) − x 0
  — with no finiteness assumed — and after tile 31 the two agree.
-/
import Idealize.ShloMosaic.PureOps.Ideal.Laws

noncomputable section

open scoped BigOperators

namespace Cert.Pool

/-- The sum of the 8 tokens of tile `s`. -/
def tileSum (x : ℕ → EReal) (s : ℕ) : EReal := ∑ k : Fin 8, x (8 * s + k.val)

/-- The running sum as the tiled program keeps it: reset to (tile 0's sum) − (token 0), then one tile added at a time. -/
def running (x : ℕ → EReal) : ℕ → EReal
  | 0 => tileSum x 0 - x 0
  | s + 1 => running x s + tileSum x (s + 1)

theorem running_zero (x : ℕ → EReal) : running x 0 = tileSum x 0 - x 0 := rfl
theorem running_succ (x : ℕ → EReal) (s : ℕ) : running x (s + 1) = running x s + tileSum x (s + 1) := rfl

/-- After tile `s` the running sum is the sum of the first 8·(s+1) tokens, less token 0. -/
theorem running_eq (x : ℕ → EReal) (s : ℕ) :
    running x s = (∑ k ∈ Finset.range (8 * (s + 1)), x k) - x 0 := by
  induction s with
  | zero =>
    rw [running_zero]; unfold tileSum
    rw [show 8 * (0 + 1) = 8 from rfl, Finset.sum_range]
    simp only [Nat.mul_zero, Nat.zero_add]
  | succ s ih =>
    rw [running_succ, ih]; unfold tileSum
    rw [show 8 * (s + 1 + 1) = 8 * (s + 1) + 8 from by ring, Finset.sum_range_add,
      Finset.sum_range (fun k => x (8 * (s + 1) + k)), sub_eq_add_neg, sub_eq_add_neg, add_right_comm]

/-- After the last of the 32 tiles: all 256 tokens, less token 0. -/
theorem running_last (x : ℕ → EReal) : running x 31 = (∑ k : Fin 256, x k.val) - x 0 := by
  rw [running_eq, show 8 * (31 + 1) = 256 from rfl, Finset.sum_range]

end Cert.Pool

end
-- ==== Proof.RefValueA.lean ====
/-
  What the pooled-mean reference's run computes, part one: the arrays its host lines prepare, its input blocks as
  entries of the arguments, and the running sum point by point.

  The host lines pad the weights from 1000 to 1024 columns and the bias from 1000 to 1024 entries (then view it as
  one row); inside the first 1000 columns both read the arguments. Point t of the grid handles batch tile b = t / 32
  and token tile s = t mod 32: its input block holds X[256b + r, 8s + k, d] at (r, k, d). By induction on the point,
  the running sum after point t holds at (r, d) the value `Pool.running` of the token sequence of (256b + r, d)
  after tile s.
-/
import proofs.«122367_g2000305705504031_pallasbulk_1013_27_alg».proof.Proof.RefPieces
import proofs.«122367_g2000305705504031_pallasbulk_1013_27_alg».proof.Proof.RefPayloads
import proofs.«122367_g2000305705504031_pallasbulk_1013_27_alg».proof.Proof.PoolAlgebra
import Idealize.ShloMosaic.Lib.StableHlo.Run
import Idealize.ShloMosaic.Lib.KernelVsHost
import Idealize.ShloMosaic.Lib.Pipeline.Value

set_option maxRecDepth 16384

noncomputable section

namespace Cert.ReferenceIdeal.Pooled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx
open Cert.ReferenceIdeal.PooledValue

variable (m : (ℓ : Loc nD τ sig) → Buf (Elt Ideal) ℓ) (ρ : Dev nD → PrngReg)

/-! ## The arrays -/

abbrev argX (c : Dev nD) : S512x256x768.Idx → EReal := m ((c : Thread nD τ).loc main_arg0)
abbrev argW (c : Dev nD) : S768x1000.Idx → EReal := m ((c : Thread nD τ).loc main_arg1)
abbrev argB (c : Dev nD) : S1000.Idx → EReal := m ((c : Thread nD τ).loc main_arg2)
/-- The padded weights and the padded bias row, as the region finds them. -/
abbrev padW (c : Dev nD) : S768x1024.Idx → EReal := V m c main_v0
abbrev padB (c : Dev nD) : S1x1024.Idx → EReal := V m c main_v2

theorem V_w (c : Dev nD) : (V m c main_v0 : S768x1024.Idx → EReal)
    = pad S768x1024 ![0, 0] ![0, 24] ![0, 0] (argW m c) (sitofp (F := Ideal) .f32 (constantI S_ 32 0#32)) pads_S768x1000_S768x1024_000_0240 h_S_ := by
  dsimp only [V, V0]
  simp only [hostOps0, hostOps0_1, hostOps0_2, hostOps0_3, hostOps0_4, List.flatten_cons, List.flatten_nil, List.append_nil, List.cons_append, List.nil_append]
  after_results
  rfl

theorem V_b (c : Dev nD) : (V m c main_v2 : S1x1024.Idx → EReal)
    = shapeCast S1x1024 (pad S1024 ![0] ![24] ![0] (argB m c) (sitofp (F := Ideal) .f32 (constantI S_ 32 0#32)) pads_S1000_S1024_0240 h_S_) shapeCasts_S1024_S1x1024 := by
  dsimp only [V, V0]
  simp only [hostOps0, hostOps0_1, hostOps0_2, hostOps0_3, hostOps0_4, List.flatten_cons, List.flatten_nil, List.append_nil, List.cons_append, List.nil_append]
  after_results
  rfl

/-- Inside the first 1000 columns the padded weights are the weights. -/
theorem padW_apply (c : Dev nD) (d : Fin 768) (j : Fin 1000) (j' : Fin 1024) (hj : j'.val = j.val) :
    padW m c (ix2 d j') = argW m c (ix2 d j) := by
  show (V m c main_v0 : S768x1024.Idx → EReal) (ix2 d j') = _
  rw [V_w]
  exact pad_apply_of_inside _ _ _ _ _ _ _ (ix2 d j') (ix2 d j) (fun a => by
    match a with
    | ⟨0, _⟩ => show d.val = 0 + d.val * (0 + 1); omega
    | ⟨1, _⟩ => show j'.val = 0 + j.val * (0 + 1); omega)

/-- Inside the first 1000 entries the padded bias row is the bias. -/
theorem padB_apply (c : Dev nD) (j : Fin 1000) (j' : Fin 1024) (hj : j'.val = j.val) :
    padB m c (ix2 (0 : Fin 1) j') = argB m c (ix1 j) := by
  show (V m c main_v2 : S1x1024.Idx → EReal) (ix2 (0 : Fin 1) j') = _
  rw [V_b]
  refine (shapeCast_apply _ _ (ix2 (0 : Fin 1) j') (ix1 j') (by
    rw [Shape.rowMajor_val_one, Shape.rowMajor_val_two]
    show j'.val = 0 * 1024 + j'.val
    omega)).trans ?_
  exact pad_apply_of_inside _ _ _ _ _ _ _ (ix1 j') (ix1 j) (fun a => by
    match a with
    | ⟨0, _⟩ => show j'.val = 0 + j.val * (0 + 1); omega)

/-! ## The input blocks -/

/-- Which block of the activations point `t` is handed: batch tile t / 32, token tile t mod 32. -/
theorem idx0_facts : ∀ t : Fin cfg0.N, win0_0.index t (0 : Fin 3) = t.val / 32 ∧ win0_0.index t (1 : Fin 3) = t.val % 32
    ∧ win0_0.index t (2 : Fin 3) = 0 :=
  (by decide +kernel : ∀ t : Fin grid0.N, _)
/-- The weights' and the bias row's blocks are the whole arrays. -/
theorem idx1_facts : ∀ t : Fin cfg0.N, win0_1.index t (0 : Fin 2) = 0 ∧ win0_1.index t (1 : Fin 2) = 0 :=
  (by decide +kernel : ∀ t : Fin grid0.N, _)
theorem idx2_facts : ∀ t : Fin cfg0.N, win0_2.index t (0 : Fin 2) = 0 ∧ win0_2.index t (1 : Fin 2) = 0 :=
  (by decide +kernel : ∀ t : Fin grid0.N, _)
/-- The output block of point `t` is row tile t / 32. -/
theorem idx3_facts : ∀ t : Fin cfg0.N, win0_3.index t (0 : Fin 2) = t.val / 32 ∧ win0_3.index t (1 : Fin 2) = 0 :=
  (by decide +kernel : ∀ t : Fin grid0.N, _)

theorem iblk0_apply (c : Dev nD) (t : Fin cfg0.N) (r : Fin 256) (k : Fin 8) (d : Fin 768) (i : S512x256x768.Idx)
    (h0 : (i 0).val = 256 * (t.val / 32) + r.val) (h1 : (i 1).val = 8 * (t.val % 32) + k.val) (h2 : (i 2).val = d.val) :
    (iblk m c 0 t : FVec Ideal S256x8x768 .f32) (ix3 r k d) = argX m c i := by
  obtain ⟨e0, e1, e2⟩ := idx0_facts t
  unfold iblk
  rw [View.read_apply]
  show V m c main_arg0 _ = _
  rw [V_main_arg0]
  refine congrArg (argX m c) (funext fun a => Fin.ext ?_)
  match a with
  | ⟨0, _⟩ => show win0_0.index t (0 : Fin 3) * 256 + 1 * r.val = (i 0).val; rw [e0, h0]; omega
  | ⟨1, _⟩ => show win0_0.index t (1 : Fin 3) * 8 + 1 * k.val = (i 1).val; rw [e1, h1]; omega
  | ⟨2, _⟩ => show win0_0.index t (2 : Fin 3) * 768 + 1 * d.val = (i 2).val; rw [e2, h2]; omega

theorem iblk1_apply (c : Dev nD) (t : Fin cfg0.N) (d : Fin 768) (j : Fin 1024) :
    (iblk m c 1 t : FVec Ideal S768x1024 .f32) (ix2 d j) = padW m c (ix2 d j) := by
  obtain ⟨e0, e1⟩ := idx1_facts t
  unfold iblk
  rw [View.read_apply]
  show V m c main_v0 _ = _
  refine congrArg (padW m c) (funext fun a => Fin.ext ?_)
  match a with
  | ⟨0, _⟩ => show win0_1.index t (0 : Fin 2) * 768 + 1 * d.val = d.val; rw [e0]; omega
  | ⟨1, _⟩ => show win0_1.index t (1 : Fin 2) * 1024 + 1 * j.val = j.val; rw [e1]; omega

theorem iblk2_apply (c : Dev nD) (t : Fin cfg0.N) (j : Fin 1024) :
    (iblk m c 2 t : FVec Ideal S1x1024 .f32) (ix2 (0 : Fin 1) j) = padB m c (ix2 (0 : Fin 1) j) := by
  obtain ⟨e0, e1⟩ := idx2_facts t
  unfold iblk
  rw [View.read_apply]
  show V m c main_v2 _ = _
  refine congrArg (padB m c) (funext fun a => Fin.ext ?_)
  match a with
  | ⟨0, _⟩ => show win0_2.index t (0 : Fin 2) * 1 + 1 * 0 = 0; rw [e0]
  | ⟨1, _⟩ => show win0_2.index t (1 : Fin 2) * 1024 + 1 * j.val = j.val; rw [e1]; omega

/-! ## The token sequence of one (batch row, feature) -/

/-- Token `k` of batch row 256·b + r, feature d (zero outside the array: never read). -/
def tok (c : Dev nD) (b : ℕ) (r : Fin 256) (d : Fin 768) (k : ℕ) : EReal :=
  if h : 256 * b + r.val < 512 ∧ k < 256 then argX m c (ix3 ⟨256 * b + r.val, h.1⟩ ⟨k, h.2⟩ d) else 0

theorem tok_eq (c : Dev nD) (b : ℕ) (r : Fin 256) (d : Fin 768) (k : ℕ) (hb : 256 * b + r.val < 512) (hk : k < 256) :
    tok m c b r d k = argX m c (ix3 ⟨256 * b + r.val, hb⟩ ⟨k, hk⟩ d) := dif_pos ⟨hb, hk⟩

/-- Point `t`'s activation block, at its literal type. -/
abbrev blk0 (c : Dev nD) (t : Fin cfg0.N) : FVec Ideal S256x8x768 .f32 := iblk m c 0 t

/-- An entry of point `t`'s block is a token of the sequence. -/
theorem blk0_tok (c : Dev nD) (t : Fin cfg0.N) (r : Fin 256) (k : Fin 8) (d : Fin 768) :
    blk0 m c t (ix3 r k d) = tok m c (t.val / 32) r d (8 * (t.val % 32) + k.val) := by
  have hN : t.val < 64 := lt_of_lt_of_eq t.isLt (show cfg0.N = 64 from N_0)
  have hb : 256 * (t.val / 32) + r.val < 512 := by have := r.isLt; omega
  have hk : 8 * (t.val % 32) + k.val < 256 := by have := k.isLt; omega
  rw [tok_eq m c _ r d _ hb hk]
  exact iblk0_apply m c t r k d _ rfl rfl rfl

/-- The token sum of point `t`'s block is the sequence's tile sum. -/
theorem blockSum_eq (c : Dev nD) (t : Fin cfg0.N) (r : Fin 256) (d : Fin 768) :
    (∑ k : Fin 8, blk0 m c t (ix3 r k d)) = Pool.tileSum (tok m c (t.val / 32) r d) (t.val % 32) :=
  Finset.sum_congr rfl fun k _ => blk0_tok m c t r k d

/-- Token 0 of a first-tile block is the sequence's token 0. -/
theorem blockTok0_eq (c : Dev nD) (t : Fin cfg0.N) (h0 : t.val % 32 = 0) (r : Fin 256) (d : Fin 768) :
    (tokenZero (iblk m c 0 t) : FVec Ideal S256x1x768 .f32) (ix3 r (0 : Fin 1) d) = tok m c (t.val / 32) r d 0 := by
  have hN : t.val < 64 := lt_of_lt_of_eq t.isLt (show cfg0.N = 64 from N_0)
  have hb : 256 * (t.val / 32) + r.val < 512 := by have := r.isLt; omega
  rw [tok_eq m c _ r d 0 hb (by omega)]
  show blk0 m c t ((Rect.unit (s := S256x8x768) ![0, 0, 0] S256x1x768.size inb_S256x8x768_S256x1x768_0_0_0).emb (ix3 r (0 : Fin 1) d)) = _
  have e : (Rect.unit (s := S256x8x768) ![0, 0, 0] S256x1x768.size inb_S256x8x768_S256x1x768_0_0_0).emb (ix3 r (0 : Fin 1) d) = ix3 r (0 : Fin 8) d :=
    funext fun a => Fin.ext (by
      rw [Rect.emb_apply]
      match a with
      | ⟨0, _⟩ => show 0 + 1 * r.val = r.val; omega
      | ⟨1, _⟩ => show 0 + 1 * 0 = 0; rfl
      | ⟨2, _⟩ => show 0 + 1 * d.val = d.val; omega)
  rw [e]
  exact iblk0_apply m c t r 0 d _ rfl (by show 0 = 8 * (t.val % 32) + 0; omega) rfl

/-! ## The running sum, point by point -/

theorem acc_inv (c : Dev nD) : ∀ (n : ℕ) (hn : n < cfg0.N) (r : Fin 256) (d : Fin 768),
    ((outsAt m c n hn).2 : FVec Ideal S256x768 .f32) (ix2 r d) = Pool.running (tok m c (n / 32) r d) (n % 32) := by
  intro n
  induction n with
  | zero =>
    intro hn r d
    show ((stepAt m c ⟨0, hn⟩ accNone).2 : FVec Ideal S256x768 .f32) (ix2 r d) = _
    rw [stepAt_first m c ⟨0, hn⟩ _ rfl]
    dsimp only
    rw [accFirst_eq, reset_apply, blockSum_eq m c ⟨0, hn⟩ r d, blockTok0_eq m c ⟨0, hn⟩ rfl r d]
    rfl
  | succ n ih =>
    intro hn r d
    have hN : n + 1 < 64 := lt_of_lt_of_eq hn (show cfg0.N = 64 from N_0)
    show ((stepAt m c ⟨n + 1, hn⟩ (outsAt m c n (Nat.lt_of_succ_lt hn)).2).2 : FVec Ideal S256x768 .f32) (ix2 r d) = _
    by_cases h0 : (n + 1) % 32 = 0
    · rw [stepAt_first m c ⟨n + 1, hn⟩ _ h0]
      dsimp only
      rw [accFirst_eq, reset_apply, blockSum_eq m c ⟨n + 1, hn⟩ r d, blockTok0_eq m c ⟨n + 1, hn⟩ h0 r d]
      show _ = Pool.running _ ((n + 1) % 32)
      rw [h0]; rfl
    · have hq : (n + 1) / 32 = n / 32 := by omega
      have hs : (n + 1) % 32 = n % 32 + 1 := by omega
      by_cases h1 : (n + 1) % 32 = 31
      · rw [stepAt_last m c ⟨n + 1, hn⟩ _ h0 h1]
        dsimp only
        rw [accLast_eq, accumulate_apply, ih (Nat.lt_of_succ_lt hn) r d, blockSum_eq m c ⟨n + 1, hn⟩ r d]
        show _ = Pool.running (tok m c ((n + 1) / 32) r d) ((n + 1) % 32)
        rw [hs, Pool.running_succ, hq, ← hs]
      · rw [stepAt_mid m c ⟨n + 1, hn⟩ _ h0 h1]
        dsimp only
        rw [accMid_eq, accumulate_apply, ih (Nat.lt_of_succ_lt hn) r d, blockSum_eq m c ⟨n + 1, hn⟩ r d]
        show _ = Pool.running (tok m c ((n + 1) / 32) r d) ((n + 1) % 32)
        rw [hs, Pool.running_succ, hq, ← hs]

end Cert.ReferenceIdeal.Pooled

end
-- ==== Proof.RefValueB.lean ====
/-
  What the pooled-mean reference's run computes, part two: the padded result, the slice, the run.

  Only the points with token tile 31 store and write back an output block: point t writes rows
  256·(t / 32) … + 255 of the padded 512 × 1024 result. By then the running sum at (r, d) is the whole token
  sequence's sum less token 0 — `pooled` — so the block is `pooled · κ · (padded weights) + (padded bias)`. The two
  such blocks tile the padded result. The host line after the region keeps the first 1000 columns, where the
  padded weights and bias are the arguments: the result is the array of logits.
-/
import proofs.«122367_g2000305705504031_pallasbulk_1013_27_alg».proof.Proof.RefValueA
import proofs.«122367_g2000305705504031_pallasbulk_1013_27_alg».proof.Proof.HeadSpec

set_option maxRecDepth 16384

noncomputable section

namespace Cert.ReferenceIdeal.Pooled

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open scoped BigOperators
open Idealize.ShloMosaic.ValueIdx
open Cert.ReferenceIdeal.PooledValue

variable (m : (ℓ : Loc nD τ sig) → Buf (Elt Ideal) ℓ) (ρ : Dev nD → PrngReg)

/-! ## The padded result -/

def padLogit (c : Dev nD) (b : Fin 512) (j : Fin 1024) : EReal :=
  (∑ d : Fin 768, Cert.Head.pooled (argX m c) b d * κ * padW m c (ix2 d j)) + padB m c (ix2 (0 : Fin 1) j)

def padResult (c : Dev nD) : S512x1024.Idx → EReal := fun i => padLogit m c (i 0) (i 1)

theorem padResult_at (c : Dev nD) (i : S512x1024.Idx) (b : Fin 512) (j : Fin 1024) (h0 : (i 0).val = b.val) (h1 : (i 1).val = j.val) :
    padResult m c i = padLogit m c b j := by
  have e : i = ix2 b j := funext fun a => by
    match a with
    | ⟨0, _⟩ => exact Fin.ext h0
    | ⟨1, _⟩ => exact Fin.ext h1
  subst e; rfl

/-- After the last of the 32 token tiles the running sum is the sum over tokens 1:. -/
theorem running_pooled (c : Dev nD) (b : ℕ) (r : Fin 256) (d : Fin 768) (hb : 256 * b + r.val < 512) :
    Pool.running (tok m c b r d) 31 = Cert.Head.pooled (argX m c) ⟨256 * b + r.val, hb⟩ d := by
  rw [Pool.running_last]
  unfold Cert.Head.pooled
  congr 1
  · exact Finset.sum_congr rfl fun q _ => tok_eq m c b r d q.val hb q.isLt
  · exact tok_eq m c b r d 0 hb (by omega)

/-- The finishing arithmetic on a running sum and blocks whose entries are known. -/
theorem finish_known (acc : FVec Ideal S256x768 .f32) (x1 : FVec Ideal S768x1024 .f32) (x2 : FVec Ideal S1x1024 .f32)
    (P : Fin 768 → EReal) (Wp : S768x1024.Idx → EReal) (Bp : S1x1024.Idx → EReal) (r : Fin 256) (j : Fin 1024)
    (hacc : ∀ d : Fin 768, acc (ix2 r d) = P d) (hw : ∀ d : Fin 768, x1 (ix2 d j) = Wp (ix2 d j))
    (hb : x2 (ix2 (0 : Fin 1) j) = Bp (ix2 (0 : Fin 1) j)) :
    k0_pay4 (F := Ideal) acc x1 x2 (ix2 r j) = (∑ d : Fin 768, P d * κ * Wp (ix2 d j)) + Bp (ix2 (0 : Fin 1) j) := by
  rw [finish_apply]
  simp only [hacc, hw, hb]

/-- What a last-tile point leaves: the new running sum, and the finish applied to it. -/
theorem last_outs (c : Dev nD) (t : Fin cfg0.N) (h0 : ¬t.val % 32 = 0) (h1 : t.val % 32 = 31) :
    ((outsAt m c t.val t.isLt).1 : FVec Ideal S256x1024 .f32)
      = k0_pay4 ((outsAt m c t.val t.isLt).2) (iblk m c 1 t) (iblk m c 2 t) := by
  rw [outsAt_eq, stepAt_last m c t _ h0 h1]; dsimp only; rw [outLast_eq, accLast_eq]

/-- The output block a last-tile point stores, entry by entry. -/
theorem block_eq (c : Dev nD) (t : Fin cfg0.N) (h1 : t.val % 32 = 31) (y : S256x1024.Idx) (i : S512x1024.Idx)
    (hi0 : (i 0).val = 256 * (t.val / 32) + (y 0).val) (hi1 : (i 1).val = (y 1).val) :
    ((outsAt m c t.val t.isLt).1 : FVec Ideal S256x1024 .f32) y = padResult m c i := by
  obtain ⟨r, j, rfl⟩ : ∃ (r : Fin 256) (j : Fin 1024), y = ix2 r j := ⟨y 0, y 1, eq_ix2 y⟩
  have hN : t.val < 64 := lt_of_lt_of_eq t.isLt (show cfg0.N = 64 from N_0)
  have h0 : ¬t.val % 32 = 0 := by omega
  have hb : 256 * (t.val / 32) + r.val < 512 := by have := r.isLt; omega
  rw [last_outs m c t h0 h1]
  exact (finish_known ((outsAt m c t.val t.isLt).2) (iblk m c 1 t) (iblk m c 2 t)
      (fun d => Cert.Head.pooled (argX m c) ⟨256 * (t.val / 32) + r.val, hb⟩ d) (padW m c) (padB m c) r j
      (fun d => by rw [acc_inv m c t.val t.isLt r d, h1, running_pooled m c _ r d hb])
      (fun d => iblk1_apply m c t d j) (iblk2_apply m c t j)).trans
    (padResult_at m c i ⟨256 * (t.val / 32) + r.val, hb⟩ j hi0 hi1).symm

/-! ## From blocks to the padded array -/

theorem flushed_eq (c : Dev nD) (t : Fin cfg0.N) (hf : (cfg0.win 3).flush t = true) :
    (dats m 0 c).flushed 3 t = ((cfg0.win 3).blk t).view.read (Elt Ideal) (padResult m c) := by
  obtain ⟨e0, e1⟩ := idx3_facts t
  have h1 : t.val % 32 = 31 := (flush0_3 t).mp hf
  show (cfg0.win 3).cut (grid0.coords t) ((dats m 0 c).after 3 t) = _
  rw [after3]
  funext y
  rw [View.read_apply]
  refine block_eq m c t h1 y _ ?_ ?_
  · show win0_3.index t (0 : Fin 2) * 256 + 1 * (y 0).val = 256 * (t.val / 32) + (y 0).val
    rw [e0]; omega
  · show win0_3.index t (1 : Fin 2) * 1024 + 1 * (y 1).val = (y 1).val
    rw [e1]; omega

theorem mem_blk (t : Fin cfg0.N) (i : S512x1024.Idx) :
    i ∈ ((cfg0.win 3).blk t).view.set ↔ ∀ a : Fin 2, win0_3.index t a * S256x1024.size a ≤ (i a).val ∧ (i a).val < win0_3.index t a * S256x1024.size a + S256x1024.size a := by
  show i ∈ ((View.whole main_v3).slice (win0_3.rect t)).set ↔ _
  rw [View.set_slice_whole, Rect.mem_set_unit]
  exact Iff.rfl

/-- Row i₀ of the padded result lies in the block written at the last token tile of batch tile i₀ / 256. -/
theorem cover (i : S512x1024.Idx) : ∃ t : Fin cfg0.N, (cfg0.win 3).flush t = true ∧ i ∈ ((cfg0.win 3).blk t).view.set := by
  have hi0 : (i 0).val < 512 := (i 0).isLt
  have hi1 : (i 1).val < 1024 := (i 1).isLt
  have hN : cfg0.N = 64 := N_0
  have ht : 32 * ((i 0).val / 256) + 31 < cfg0.N := by rw [hN]; omega
  obtain ⟨e0, e1⟩ := idx3_facts ⟨32 * ((i 0).val / 256) + 31, ht⟩
  refine ⟨⟨32 * ((i 0).val / 256) + 31, ht⟩, (flush0_3 _).mpr (by dsimp only; omega), ?_⟩
  rw [mem_blk]
  intro a
  match a with
  | ⟨0, _⟩ =>
    show win0_3.index _ (0 : Fin 2) * 256 ≤ (i 0).val ∧ (i 0).val < win0_3.index _ (0 : Fin 2) * 256 + 256
    rw [e0]; dsimp only; omega
  | ⟨1, _⟩ =>
    show win0_3.index _ (1 : Fin 2) * 1024 ≤ (i 1).val ∧ (i 1).val < win0_3.index _ (1 : Fin 2) * 1024 + 1024
    rw [e1]; omega

/-- The padded result array after the region. -/
theorem final3 (c : Dev nD) : (dats m 0 c).arrAt 3 cfg0.N = padResult m c :=
  (dats m 0 c).arrAt_eq_of_cover 3 (padResult m c) (flushed_eq m c) (cover)

/-! ## The slice after the region -/

/-- The first 1000 columns of the padded result are the logits. -/
theorem slice_eq (c : Dev nD) :
    extractStridedSlice S512x1000 ![0, 0] (padResult m c) slices_S512x1024_S512x1000_0_0
      = Cert.Head.head κ (argX m c) (argW m c) (argB m c) := by
  funext i
  obtain ⟨b, j, rfl⟩ : ∃ (b : Fin 512) (j : Fin 1000), i = ix2 b j := ⟨i 0, i 1, eq_ix2 i⟩
  have hj : j.val < 1024 := by have := j.isLt; omega
  refine (extractStridedSlice_apply _ _ _ (ix2 b j) (ix2 b (⟨j.val, hj⟩ : Fin 1024)) (fun a => by
    match a with
    | ⟨0, _⟩ => exact (Nat.zero_add _).symm
    | ⟨1, _⟩ => exact (Nat.zero_add _).symm)).trans ?_
  rw [padResult_at m c _ b ⟨j.val, hj⟩ rfl rfl, Cert.Head.head_at κ _ _ _ (ix2 b j) b j rfl rfl]
  unfold padLogit Cert.Head.logit
  congr 1
  · exact Finset.sum_congr rfl fun d _ => by rw [padW_apply m c d j ⟨j.val, hj⟩ rfl]
  · exact padB_apply m c j ⟨j.val, hj⟩ rfl

theorem tail_eq (c : Dev nD) :
    (Pipeline.afterTail₀ cfgs (dats m) 0 (V0 m) [hostOps1] c main_v4 : S512x1000.Idx → EReal)
      = Cert.Head.head κ (argX m c) (argW m c) (argB m c) := by
  unfold Pipeline.afterTail₀
  show StableHlo.after hostOps1 _ (Proc.devRef .tc main_v4) = _
  after_results
  rw [show Pipeline.withArrays spec0 c (V0 m c) (fun w => (dats m 0 c).arrAt w cfg0.N) (Proc.devRef .tc main_v3) = padResult m c from
    (Pipeline.withArrays_arr spec0 launch0.win.arr_inj c _ _ 3).trans (final3 m c)]
  exact slice_eq m c

/-! ## The run, read -/

theorem run : θ_run defs (onTc (τ := τ) (main (F := Ideal))) ⟨m, fun _ => 0, ρ⟩ fun r => ∀ c : Dev nD,
      r.2.mem ((c : Thread nD τ).loc main_v4) = Cert.Head.head κ (argX m c) (argW m c) (argB m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c =>
    ⟨((h c).2 main_v4 (Pipeline.mem_restRefs_of main_v4 (by decide) (by decide))).trans (tail_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c)⟩)
    (run_main m ρ)

end Cert.ReferenceIdeal.Pooled

end
-- ==== Proof.lean ====
/-
  The classification head: mean over tokens 1: of the activations, times the weights, plus the bias.

  The kernel takes 16 batch rows at a time: it sums all 256 tokens of each, subtracts token 0, scales, multiplies by
  the weights and adds the bias. The reference takes 256 batch rows at a time and walks the tokens in 32 tiles of 8,
  keeping a running sum in a scratch buffer — reset to (tile 0's sum) − (token 0), then one tile added per step — and
  finishes on the last tile against weights and bias padded to 1024 columns, of which the first 1000 are kept.
  On the extended reals a − b is a + (−b) and addition is commutative and associative, so the running sum after the
  last tile is the whole token sum less token 0, with no finiteness needed; the padding is never read inside the
  first 1000 columns; and the same scale word stands in both programs. Hence both results are the one array `head`.

  The three frames: the kernel's (at both instances) are the generated class-A frames; the reference's is proved from
  its body's three cases (first / middle / last token tile) with the running sum tracked between grid points.
-/
import proofs.«122367_g2000305705504031_pallasbulk_1013_27_alg».proof.Defs
import proofs.«122367_g2000305705504031_pallasbulk_1013_27_alg».proof.Proof.Gen.Kernel
import proofs.«122367_g2000305705504031_pallasbulk_1013_27_alg».proof.Proof.Gen.Kernel.Frame
import proofs.«122367_g2000305705504031_pallasbulk_1013_27_alg».proof.Proof.Gen.KernelIdeal
import proofs.«122367_g2000305705504031_pallasbulk_1013_27_alg».proof.Proof.Gen.KernelIdeal.Frame
import proofs.«122367_g2000305705504031_pallasbulk_1013_27_alg».proof.Proof.Gen.KernelIdeal.Value
import proofs.«122367_g2000305705504031_pallasbulk_1013_27_alg».proof.Proof.Gen.ReferenceIdeal
import proofs.«122367_g2000305705504031_pallasbulk_1013_27_alg».proof.Proof.Gen.ReferenceIdeal.Frame
import proofs.«122367_g2000305705504031_pallasbulk_1013_27_alg».proof.Proof.Gen.Pre_finite_inputs
import proofs.«122367_g2000305705504031_pallasbulk_1013_27_alg».proof.Proof.KernelValue
import proofs.«122367_g2000305705504031_pallasbulk_1013_27_alg».proof.Proof.RefValueB
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ => Cert.ReferenceIdeal.Pooled.frame m ρ

/-- The idealization rewrote nothing. -/
theorem preserves : Cert.preserves_Kernel_KernelIdeal := trivial

/-- Both programs end with the array of logits of arguments that agree. -/
theorem algebraic : Cert.algebraic_KernelIdeal_ReferenceIdeal := by
  intro m ρ m' ρ' _ hagree
  refine ⟨_, Cert.KernelIdeal.HeadValue.run m ρ, ?_⟩
  refine (θ_run Cert.ReferenceIdeal.defs _ _).mono (fun _ h c => ⟨(h c).1.trans ?_, (h c).2⟩)
    (Cert.ReferenceIdeal.Pooled.run m' ρ')
  exact congr (congr (congrArg (Cert.Head.head Cert.KernelIdeal.HeadValue.κ) (hagree c).1) (hagree c).2.1) (hagree c).2.2

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
